-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4x2048 : Shape := ⟨4, ![2, 4096, 4, 2048]⟩
abbrev S24x8192 : Shape := ⟨2, ![24, 8192]⟩
abbrev S24 : Shape := ⟨1, ![24]⟩
abbrev S3 : Shape := ⟨1, ![3]⟩
abbrev S_ : Shape := ⟨0, ![]⟩

class Facts : Prop where
  bcast_S_S2x4096x4x2048 : S_.BroadcastsInDim S2x4096x4x2048 (![] : Fin 0 → Fin S2x4096x4x2048.rank)
  reducesTo_S2x4096x4x2048_S_d0_1_2_3 : S2x4096x4x2048.ReducesTo [0, 1, 2, 3] S_
  h_S_ : 0 < S_.numel
  bcast_S_S24x8192 : S_.BroadcastsInDim S24x8192 (![] : Fin 0 → Fin S24x8192.rank)
  reducesTo_S24x8192_S_d0_1 : S24x8192.ReducesTo [0, 1] S_
  bcast_S_S24 : S_.BroadcastsInDim S24 (![] : Fin 0 → Fin S24.rank)
  reducesTo_S24_S_d0 : S24.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S2x4096x4x2048 .f32) (main_arg1 : FVec F S24x8192 .f32) (main_arg2 : FVec F S24 .f32) (main_arg3 : FVec F S3 .f32) : IVec S_ 1 :=
  let main_v0 : FVec F S2x4096x4x2048 .f32 := Host.absf main_arg0
  let main_cst : FVec F S_ .f32 := constant S_ .f32 0x7F800000#32
  let main_v1 : FVec F S2x4096x4x2048 .f32 := broadcastInDim S2x4096x4x2048 ![] bcast_S_S2x4096x4x2048 main_cst
  let main_v2 : IVec S2x4096x4x2048 1 := cmpf .olt main_v0 main_v1
  let main_c : IVec S_ 1 := constantI S_ 1 1#1
  let main_v3 : IVec S_ 1 := (fun x v => Host.reduce IntOp.andi x v reducesTo_S2x4096x4x2048_S_d0_1_2_3 h_S_) main_v2 main_c
  let main_v4 : FVec F S24x8192 .f32 := Host.absf main_arg1
  let main_cst_0 : FVec F S_ .f32 := constant S_ .f32 0x7F800000#32
  let main_v5 : FVec F S24x8192 .f32 := broadcastInDim S24x8192 ![] bcast_S_S24x8192 main_cst_0
  let main_v6 : IVec S24x8192 1 := cmpf .olt main_v4 main_v5
  let main_c_1 : IVec S_ 1 := constantI S_ 1 1#1
  let main_v7 : IVec S_ 1 := (fun x v => Host.reduce IntOp.andi x v reducesTo_S24x8192_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S2x4096x4x2048 : Shape := ⟨4, ![2, 4096, 4, 2048]⟩
abbrev S24x8192 : Shape := ⟨2, ![24, 8192]⟩
abbrev S24 : Shape := ⟨1, ![24]⟩
abbrev S3 : Shape := ⟨1, ![3]⟩
abbrev S2x4096x8192 : Shape := ⟨3, ![2, 4096, 8192]⟩
abbrev S8192x24 : Shape := ⟨2, ![8192, 24]⟩
abbrev S2x4096x4 : Shape := ⟨3, ![2, 4096, 4]⟩
abbrev S2x4096x4x4 : Shape := ⟨4, ![2, 4096, 4, 4]⟩
abbrev S2x4096x2048 : Shape := ⟨3, ![2, 4096, 2048]⟩
abbrev S1x256x8192 : Shape := ⟨3, ![1, 256, 8192]⟩
abbrev S1x256x4 : Shape := ⟨3, ![1, 256, 4]⟩
abbrev S1x256x4x4 : Shape := ⟨4, ![1, 256, 4, 4]⟩
abbrev S1x256x2048 : Shape := ⟨3, ![1, 256, 2048]⟩
abbrev S256x8192 : Shape := ⟨2, ![256, 8192]⟩
abbrev S256 : Shape := ⟨1, ![256]⟩
abbrev S256x1 : Shape := ⟨2, ![256, 1]⟩
abbrev S256x24 : Shape := ⟨2, ![256, 24]⟩
abbrev S256x4 : Shape := ⟨2, ![256, 4]⟩
abbrev S1 : Shape := ⟨1, ![1]⟩
abbrev S4 : Shape := ⟨1, ![4]⟩
abbrev S1x4 : Shape := ⟨2, ![1, 4]⟩
abbrev S256x16 : Shape := ⟨2, ![256, 16]⟩
abbrev S256x4x4 : Shape := ⟨3, ![256, 4, 4]⟩
abbrev S16 : Shape := ⟨1, ![16]⟩
abbrev S4x4 : Shape := ⟨2, ![4, 4]⟩
abbrev S1x4x4 : Shape := ⟨3, ![1, 4, 4]⟩
abbrev S256x4x1 : Shape := ⟨3, ![256, 4, 1]⟩
abbrev S256x1x4 : Shape := ⟨3, ![256, 1, 4]⟩
abbrev S256x2048 : Shape := ⟨2, ![256, 2048]⟩

abbrev nBuf : Space → Nat
  | .hbm => 10
  | .vmem => 11
  | .smem => 0
  | _ => 0

abbrev bufTy : (tb : Table) → Fin (tcTables nBuf tb) → BufTy
  | .hbm, ⟨0, _⟩ => ⟨S2x4096x4x2048, .f32⟩
  | .hbm, ⟨1, _⟩ => ⟨S24x8192, .f32⟩
  | .hbm, ⟨2, _⟩ => ⟨S24, .f32⟩
  | .hbm, ⟨3, _⟩ => ⟨S3, .f32⟩
  | .hbm, ⟨4, _⟩ => ⟨S2x4096x8192, .f32⟩
  | .hbm, ⟨5, _⟩ => ⟨S24x8192, .bf16⟩
  | .hbm, ⟨6, _⟩ => ⟨S8192x24, .bf16⟩
  | .hbm, ⟨7, _⟩ => ⟨S2x4096x4, .f32⟩
  | .hbm, ⟨8, _⟩ => ⟨S2x4096x4x4, .f32⟩
  | .hbm, ⟨9, _⟩ => ⟨S2x4096x2048, .f32⟩
  | .local _ .vmem, ⟨0, _⟩ => ⟨S1x256x8192, .f32⟩
  | .local _ .vmem, ⟨1, _⟩ => ⟨S1x256x8192, .f32⟩
  | .local _ .vmem, ⟨2, _⟩ => ⟨S8192x24, .bf16⟩
  | .local _ .vmem, ⟨3, _⟩ => ⟨S24, .f32⟩
  | .local _ .vmem, ⟨4, _⟩ => ⟨S3, .f32⟩
  | .local _ .vmem, ⟨5, _⟩ => ⟨S1x256x4, .f32⟩
  | .local _ .vmem, ⟨6, _⟩ => ⟨S1x256x4, .f32⟩
  | .local _ .vmem, ⟨7, _⟩ => ⟨S1x256x4x4, .f32⟩
  | .local _ .vmem, ⟨8, _⟩ => ⟨S1x256x4x4, .f32⟩
  | .local _ .vmem, ⟨9, _⟩ => ⟨S1x256x2048, .f32⟩
  | .local _ .vmem, ⟨10, _⟩ => ⟨S1x256x2048, .f32⟩
  | _, _ => ⟨S2x4096x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2x4096x4x2048_S2x4096x8192 : S2x4096x4x2048.ShapeCasts S2x4096x8192
  bitsLt_bf16_f32 : FTy.bits .bf16 < FTy.bits .f32
  transposes_S24x8192_S8192x24_1_0 : S24x8192.Transposes [1, 0] S8192x24
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  reduces_S256x8192_S256 : S256x8192.Reduces [1] S256
  shapeCasts_S256_S256x1 : S256.ShapeCasts S256x1
  broadcasts_S256x1_S256x8192 : S256x1.Broadcasts S256x8192
  inb_S8192x24_S8192x24_0_0 : ∀ a, (![0, 0] : Fin 2 → Nat) a + S8192x24.size a ≤ S8192x24.size a
  h_S8192x24 : 0 < S8192x24.numel
  shapeCasts_S8192x24_S8192x24 : S8192x24.ShapeCasts S8192x24
  inb_S3_S3_0 : ∀ a, (![0] : Fin 1 → Nat) a + S3.size a ≤ S3.size a
  h_S3 : 0 < S3.numel
  inb_S24_S24_0 : ∀ a, (![0] : Fin 1 → Nat) a + S24.size a ≤ S24.size a
  h_S24 : 0 < S24.numel
  slices_S256x24_o0_0_S256x4 : S256x24.Slices ![0, 0] S256x4
  slices_S3_o0_S1 : S3.Slices ![0] S1
  inpos_S1_p0 : ∀ a, (![0] : Fin 1 → Nat) a < S1.size a
  slices_S24_o0_S4 : S24.Slices ![0] S4
  shapeCasts_S4_S1x4 : S4.ShapeCasts S1x4
  broadcasts_S1x4_S256x4 : S1x4.Broadcasts S256x4
  slices_S256x24_o0_4_S256x4 : S256x24.Slices ![0, 4] S256x4
  slices_S3_o1_S1 : S3.Slices ![1] S1
  slices_S24_o4_S4 : S24.Slices ![4] S4
  slices_S256x24_o0_8_S256x16 : S256x24.Slices ![0, 8] S256x16
  shapeCasts_S256x16_S256x4x4 : S256x16.ShapeCasts S256x4x4
  slices_S3_o2_S1 : S3.Slices ![2] S1
  slices_S24_o8_S16 : S24.Slices ![8] S16
  shapeCasts_S16_S4x4 : S16.ShapeCasts S4x4
  shapeCasts_S4x4_S1x4x4 : S4x4.ShapeCasts S1x4x4
  broadcasts_S1x4x4_S256x4x4 : S1x4x4.Broadcasts S256x4x4
  reduces_S256x4x4_S256x4 : S256x4x4.Reduces [2] S256x4
  shapeCasts_S256x4_S256x4x1 : S256x4.ShapeCasts S256x4x1
  broadcasts_S256x4x1_S256x4x4 : S256x4x1.Broadcasts S256x4x4
  reduces_S256x4x4_S256x4_2 : S256x4x4.Reduces [1] S256x4
  shapeCasts_S256x4_S256x1x4 : S256x4.ShapeCasts S256x1x4
  broadcasts_S256x1x4_S256x4x4 : S256x1x4.Broadcasts S256x4x4
  slices_S256x4_o0_0_S256x1 : S256x4.Slices ![0, 0] S256x1
  slices_S256x8192_o0_0_S256x2048 : S256x8192.Slices ![0, 0] S256x2048
  broadcasts_S256x1_S256x2048 : S256x1.Broadcasts S256x2048
  slices_S256x4_o0_1_S256x1 : S256x4.Slices ![0, 1] S256x1
  slices_S256x8192_o0_2048_S256x2048 : S256x8192.Slices ![0, 2048] S256x2048
  slices_S256x4_o0_2_S256x1 : S256x4.Slices ![0, 2] S256x1
  slices_S256x8192_o0_4096_S256x2048 : S256x8192.Slices ![0, 4096] S256x2048
  slices_S256x4_o0_3_S256x1 : S256x4.Slices ![0, 3] S256x1
  slices_S256x8192_o0_6144_S256x2048 : S256x8192.Slices ![0, 6144] S256x2048
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  shapeCasts_S256x4_S1x256x4 : S256x4.ShapeCasts S1x256x4
  inb_S1x256x4x4_S1x256x4x4_0_0_0_0 : ∀ a, (![0, 0, 0, 0] : Fin 4 → Nat) a + S1x256x4x4.size a ≤ S1x256x4x4.size a
  h_S1x256x4x4 : 0 < S1x256x4x4.numel
  shapeCasts_S1x256x4x4_S256x4x4 : S1x256x4x4.ShapeCasts S256x4x4
  shapeCasts_S256x4x4_S1x256x4x4 : S256x4x4.ShapeCasts S1x256x4x4
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x8192_S8192x24_S256x24_1_0_0_1_n_n_wf : DotDims.WF S256x8192 S8192x24 S256x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S2x4096x8192.size a
  hwx0_0 : ∀ i : grid0.Coords, EltTy.bits .f32 = 32 ∨ (Rect.block (s := S2x4096x8192) S1x256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x24.size a ≤ S8192x24.size a
  hwx0_1 : ∀ i : grid0.Coords, EltTy.bits .bf16 = 32 ∨ (Rect.block (s := S8192x24) S8192x24.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24.size a ≤ S24.size a
  hwx0_2 : ∀ i : grid0.Coords, EltTy.bits .f32 = 32 ∨ (Rect.block (s := S24) S24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4.size a ≤ S2x4096x4.size a
  hwx0_4 : ∀ i : grid0.Coords, EltTy.bits .f32 = 32 ∨ (Rect.block (s := S2x4096x4) S1x256x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4x4.size a ≤ S2x4096x4x4.size a
  hwx0_5 : ∀ i : grid0.Coords, EltTy.bits .f32 = 32 ∨ (Rect.block (s := S2x4096x4x4) S1x256x4x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S2x4096x2048.size a
  hwx0_6 : ∀ i : grid0.Coords, EltTy.bits .f32 = 32 ∨ (Rect.block (s := S2x4096x2048) S1x256x2048.size (cc0_transform_6 i) (hinb0_6 i)).WholeWords (EltTy.packing .f32)

variable [Facts₀]

def dot_S256x8192_S8192x24_S256x24_1_0_0_1_n_n : DotDims S256x8192 S8192x24 S256x24 where
  lhsContracting := [1]
  rhsContracting := [0]
  lhsNonContracting := [0]
  rhsNonContracting := [1]
  lhsBatch := []
  rhsBatch := []
  wf := dot_S256x8192_S8192x24_S256x24_1_0_0_1_n_n_wf

abbrev win0_0 : Pipeline.Window sig grid0 :=
  Pipeline.Window.ofSpec (Memref.whole main_v0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x256x4.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x256x4x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x4096x4x2048 : Shape := ⟨4, ![2, 4096, 4, 2048]⟩
abbrev S24x8192 : Shape := ⟨2, ![24, 8192]⟩
abbrev S24 : Shape := ⟨1, ![24]⟩
abbrev S3 : Shape := ⟨1, ![3]⟩
abbrev S2x4096x8192 : Shape := ⟨3, ![2, 4096, 8192]⟩
abbrev S_ : Shape := ⟨0, ![]⟩
abbrev S2x4096 : Shape := ⟨2, ![2, 4096]⟩
abbrev S2x4096x1 : Shape := ⟨3, ![2, 4096, 1]⟩
abbrev S2x4096x24 : Shape := ⟨3, ![2, 4096, 24]⟩
abbrev S2x4096x4 : Shape := ⟨3, ![2, 4096, 4]⟩
abbrev S1 : Shape := ⟨1, ![1]⟩
abbrev S4 : Shape := ⟨1, ![4]⟩
abbrev S1x1x4 : Shape := ⟨3, ![1, 1, 4]⟩
abbrev S2x4096x16 : Shape := ⟨3, ![2, 4096, 16]⟩
abbrev S2x4096x4x4 : Shape := ⟨4, ![2, 4096, 4, 4]⟩
abbrev S16 : Shape := ⟨1, ![16]⟩
abbrev S4x4 : Shape := ⟨2, ![4, 4]⟩
abbrev S1x1x4x4 : Shape := ⟨4, ![1, 1, 4, 4]⟩
abbrev S2x4096x4x1 : Shape := ⟨4, ![2, 4096, 4, 1]⟩
abbrev S2x4096x1x4 : Shape := ⟨4, ![2, 4096, 1, 4]⟩
abbrev S2x4096x2048 : Shape := ⟨3, ![2, 4096, 2048]⟩

abbrev nBuf : Space → Nat
  | .hbm => 246
  | .vmem => 0
  | .smem => 0
  | _ => 0

abbrev hbmTy0_0 (i : Nat) : BufTy := match i % 128 with
  | 0 => ⟨S2x4096x4x2048, .f32⟩
  | 1 => ⟨S24x8192, .f32⟩
  | 2 => ⟨S24, .f32⟩
  | 3 => ⟨S3, .f32⟩
  | 4 => ⟨S2x4096x8192, .f32⟩
  | 5 => ⟨S2x4096x8192, .f32⟩
  | 6 => ⟨S_, .f32⟩
  | 7 => ⟨S2x4096, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096x1, .f32⟩
  | 14 => ⟨S2x4096x1, .f32⟩
  | 15 => ⟨S2x4096x1, .f32⟩
  | 16 => ⟨S2x4096x8192, .f32⟩
  | 17 => ⟨S2x4096x8192, .f32⟩
  | 18 => ⟨S2x4096x24, .f32⟩
  | 19 => ⟨S2x4096x4, .f32⟩
  | 20 => ⟨S1, .f32⟩
  | 21 => ⟨S_, .f32⟩
  | 22 => ⟨S2x4096x4, .f32⟩
  | 23 => ⟨S2x4096x4, .f32⟩
  | 24 => ⟨S4, .f32⟩
  | 25 => ⟨S1x1x4, .f32⟩
  | 26 => ⟨S2x4096x4, .f32⟩
  | 27 => ⟨S2x4096x4, .f32⟩
  | 28 => ⟨S2x4096x4, .f32⟩
  | 29 => ⟨S2x4096x4, .f32⟩
  | 30 => ⟨S_, .f32⟩
  | 31 => ⟨S2x4096x4, .f32⟩
  | 32 => ⟨S2x4096x4, .f32⟩
  | 33 => ⟨S_, .f32⟩
  | 34 => ⟨S2x4096x4, .f32⟩
  | 35 => ⟨S2x4096x4, .f32⟩
  | 36 => ⟨S_, .f32⟩
  | 37 => ⟨S2x4096x4, .f32⟩
  | 38 => ⟨S2x4096x4, .f32⟩
  | 39 => ⟨S2x4096x4, .f32⟩
  | 40 => ⟨S1, .f32⟩
  | 41 => ⟨S_, .f32⟩
  | 42 => ⟨S2x4096x4, .f32⟩
  | 43 => ⟨S2x4096x4, .f32⟩
  | 44 => ⟨S4, .f32⟩
  | 45 => ⟨S1x1x4, .f32⟩
  | 46 => ⟨S2x4096x4, .f32⟩
  | 47 => ⟨S2x4096x4, .f32⟩
  | 48 => ⟨S2x4096x4, .f32⟩
  | 49 => ⟨S2x4096x4, .f32⟩
  | 50 => ⟨S_, .f32⟩
  | 51 => ⟨S2x4096x4, .f32⟩
  | 52 => ⟨S2x4096x4, .f32⟩
  | 53 => ⟨S_, .f32⟩
  | 54 => ⟨S2x4096x4, .f32⟩
  | 55 => ⟨S2x4096x4, .f32⟩
  | 56 => ⟨S_, .f32⟩
  | 57 => ⟨S2x4096x4, .f32⟩
  | 58 => ⟨S2x4096x4, .f32⟩
  | 59 => ⟨S2x4096x16, .f32⟩
  | 60 => ⟨S2x4096x4x4, .f32⟩
  | 61 => ⟨S1, .f32⟩
  | 62 => ⟨S_, .f32⟩
  | 63 => ⟨S2x4096x4x4, .f32⟩
  | 64 => ⟨S2x4096x4x4, .f32⟩
  | 65 => ⟨S16, .f32⟩
  | 66 => ⟨S4x4, .f32⟩
  | 67 => ⟨S1x1x4x4, .f32⟩
  | 68 => ⟨S2x4096x4x4, .f32⟩
  | 69 => ⟨S2x4096x4x4, .f32⟩
  | 70 => ⟨S2x4096x4x4, .f32⟩
  | 71 => ⟨S2x4096x4x4, .f32⟩
  | 72 => ⟨S_, .f32⟩
  | 73 => ⟨S2x4096x4x4, .f32⟩
  | 74 => ⟨S2x4096x4x4, .f32⟩
  | 75 => ⟨S_, .f32⟩
  | 76 => ⟨S2x4096x4x4, .f32⟩
  | 77 => ⟨S2x4096x4x4, .f32⟩
  | 78 => ⟨S_, .f32⟩
  | 79 => ⟨S2x4096x4x4, .f32⟩
  | 80 => ⟨S2x4096x4x4, .f32⟩
  | 81 => ⟨S_, .f32⟩
  | 82 => ⟨S2x4096x4, .f32⟩
  | 83 => ⟨S2x4096x4x1, .f32⟩
  | 84 => ⟨S_, .f32⟩
  | 85 => ⟨S2x4096x4x1, .f32⟩
  | 86 => ⟨S2x4096x4x1, .f32⟩
  | 87 => ⟨S2x4096x4x4, .f32⟩
  | 88 => ⟨S2x4096x4x4, .f32⟩
  | 89 => ⟨S_, .f32⟩
  | 90 => ⟨S2x4096x4, .f32⟩
  | 91 => ⟨S2x4096x1x4, .f32⟩
  | 92 => ⟨S_, .f32⟩
  | 93 => ⟨S2x4096x1x4, .f32⟩
  | 94 => ⟨S2x4096x1x4, .f32⟩
  | 95 => ⟨S2x4096x4x4, .f32⟩
  | 96 => ⟨S2x4096x4x4, .f32⟩
  | 97 => ⟨S_, .f32⟩
  | 98 => ⟨S2x4096x4, .f32⟩
  | 99 => ⟨S2x4096x4x1, .f32⟩
  | 100 => ⟨S_, .f32⟩
  | 101 => ⟨S2x4096x4x1, .f32⟩
  | 102 => ⟨S2x4096x4x1, .f32⟩
  | 103 => ⟨S2x4096x4x4, .f32⟩
  | 104 => ⟨S2x4096x4x4, .f32⟩
  | 105 => ⟨S_, .f32⟩
  | 106 => ⟨S2x4096x4, .f32⟩
  | 107 => ⟨S2x4096x1x4, .f32⟩
  | 108 => ⟨S_, .f32⟩
  | 109 => ⟨S2x4096x1x4, .f32⟩
  | 110 => ⟨S2x4096x1x4, .f32⟩
  | 111 => ⟨S2x4096x4x4, .f32⟩
  | 112 => ⟨S2x4096x4x4, .f32⟩
  | 113 => ⟨S_, .f32⟩
  | 114 => ⟨S2x4096x4, .f32⟩
  | 115 => ⟨S2x4096x4x1, .f32⟩
  | 116 => ⟨S_, .f32⟩
  | 117 => ⟨S2x4096x4x1, .f32⟩
  | 118 => ⟨S2x4096x4x1, .f32⟩
  | 119 => ⟨S2x4096x4x4, .f32⟩
  | 120 => ⟨S2x4096x4x4, .f32⟩
  | 121 => ⟨S_, .f32⟩
  | 122 => ⟨S2x4096x4, .f32⟩
  | 123 => ⟨S2x4096x1x4, .f32⟩
  | 124 => ⟨S_, .f32⟩
  | 125 => ⟨S2x4096x1x4, .f32⟩
  | 126 => ⟨S2x4096x1x4, .f32⟩
  | 127 => ⟨S2x4096x4x4, .f32⟩
  | _ => ⟨S2x4096x4x2048, .f32⟩

abbrev hbmTy0_1 (i : Nat) : BufTy := match i % 128 with
  | 0 => ⟨S2x4096x4x4, .f32⟩
  | 1 => ⟨S_, .f32⟩
  | 2 => ⟨S2x4096x4, .f32⟩
  | 3 => ⟨S2x4096x4x1, .f32⟩
  | 4 => ⟨S_, .f32⟩
  | 5 => ⟨S2x4096x4x1, .f32⟩
  | 6 => ⟨S2x4096x4x1, .f32⟩
  | 7 => ⟨S2x4096x4x4, .f32⟩
  | 8 => ⟨S2x4096x4x4, .f32⟩
  | 9 => ⟨S_, .f32⟩
  | 10 => ⟨S2x4096x4, .f32⟩
  | 11 => ⟨S2x4096x1x4, .f32⟩
  | 12 => ⟨S_, .f32⟩
  | 13 => ⟨S2x4096x1x4, .f32⟩
  | 14 => ⟨S2x4096x1x4, .f32⟩
  | 15 => ⟨S2x4096x4x4, .f32⟩
  | 16 => ⟨S2x4096x4x4, .f32⟩
  | 17 => ⟨S_, .f32⟩
  | 18 => ⟨S2x4096x4, .f32⟩
  | 19 => ⟨S2x4096x4x1, .f32⟩
  | 20 => ⟨S_, .f32⟩
  | 21 => ⟨S2x4096x4x1, .f32⟩
  | 22 => ⟨S2x4096x4x1, .f32⟩
  | 23 => ⟨S2x4096x4x4, .f32⟩
  | 24 => ⟨S2x4096x4x4, .f32⟩
  | 25 => ⟨S_, .f32⟩
  | 26 => ⟨S2x4096x4, .f32⟩
  | 27 => ⟨S2x4096x1x4, .f32⟩
  | 28 => ⟨S_, .f32⟩
  | 29 => ⟨S2x4096x1x4, .f32⟩
  | 30 => ⟨S2x4096x1x4, .f32⟩
  | 31 => ⟨S2x4096x4x4, .f32⟩
  | 32 => ⟨S2x4096x4x4, .f32⟩
  | 33 => ⟨S_, .f32⟩
  | 34 => ⟨S2x4096x4, .f32⟩
  | 35 => ⟨S2x4096x4x1, .f32⟩
  | 36 => ⟨S_, .f32⟩
  | 37 => ⟨S2x4096x4x1, .f32⟩
  | 38 => ⟨S2x4096x4x1, .f32⟩
  | 39 => ⟨S2x4096x4x4, .f32⟩
  | 40 => ⟨S2x4096x4x4, .f32⟩
  | 41 => ⟨S_, .f32⟩
  | 42 => ⟨S2x4096x4, .f32⟩
  | 43 => ⟨S2x4096x1x4, .f32⟩
  | 44 => ⟨S_, .f32⟩
  | 45 => ⟨S2x4096x1x4, .f32⟩
  | 46 => ⟨S2x4096x1x4, .f32⟩
  | 47 => ⟨S2x4096x4x4, .f32⟩
  | 48 => ⟨S2x4096x4x4, .f32⟩
  | 49 => ⟨S_, .f32⟩
  | 50 => ⟨S2x4096x4, .f32⟩
  | 51 => ⟨S2x4096x4x1, .f32⟩
  | 52 => ⟨S_, .f32⟩
  | 53 => ⟨S2x4096x4x1, .f32⟩
  | 54 => ⟨S2x4096x4x1, .f32⟩
  | 55 => ⟨S2x4096x4x4, .f32⟩
  | 56 => ⟨S2x4096x4x4, .f32⟩
  | 57 => ⟨S_, .f32⟩
  | 58 => ⟨S2x4096x4, .f32⟩
  | 59 => ⟨S2x4096x1x4, .f32⟩
  | 60 => ⟨S_, .f32⟩
  | 61 => ⟨S2x4096x1x4, .f32⟩
  | 62 => ⟨S2x4096x1x4, .f32⟩
  | 63 => ⟨S2x4096x4x4, .f32⟩
  | 64 => ⟨S2x4096x4x4, .f32⟩
  | 65 => ⟨S_, .f32⟩
  | 66 => ⟨S2x4096x4, .f32⟩
  | 67 => ⟨S2x4096x4x1, .f32⟩
  | 68 => ⟨S_, .f32⟩
  | 69 => ⟨S2x4096x4x1, .f32⟩
  | 70 => ⟨S2x4096x4x1, .f32⟩
  | 71 => ⟨S2x4096x4x4, .f32⟩
  | 72 => ⟨S2x4096x4x4, .f32⟩
  | 73 => ⟨S_, .f32⟩
  | 74 => ⟨S2x4096x4, .f32⟩
  | 75 => ⟨S2x4096x1x4, .f32⟩
  | 76 => ⟨S_, .f32⟩
  | 77 => ⟨S2x4096x1x4, .f32⟩
  | 78 => ⟨S2x4096x1x4, .f32⟩
  | 79 => ⟨S2x4096x4x4, .f32⟩
  | 80 => ⟨S2x4096x4x4, .f32⟩
  | 81 => ⟨S_, .f32⟩
  | 82 => ⟨S2x4096x4, .f32⟩
  | 83 => ⟨S2x4096x4x1, .f32⟩
  | 84 => ⟨S_, .f32⟩
  | 85 => ⟨S2x4096x4x1, .f32⟩
  | 86 => ⟨S2x4096x4x1, .f32⟩
  | 87 => ⟨S2x4096x4x4, .f32⟩
  | 88 => ⟨S2x4096x4x4, .f32⟩
  | 89 => ⟨S_, .f32⟩
  | 90 => ⟨S2x4096x4, .f32⟩
  | 91 => ⟨S2x4096x1x4, .f32⟩
  | 92 => ⟨S_, .f32⟩
  | 93 => ⟨S2x4096x1x4, .f32⟩
  | 94 => ⟨S2x4096x1x4, .f32⟩
  | 95 => ⟨S2x4096x4x4, .f32⟩
  | 96 => ⟨S2x4096x4x4, .f32⟩
  | 97 => ⟨S_, .f32⟩
  | 98 => ⟨S2x4096x4, .f32⟩
  | 99 => ⟨S2x4096x4x1, .f32⟩
  | 100 => ⟨S_, .f32⟩
  | 101 => ⟨S2x4096x4x1, .f32⟩
  | 102 => ⟨S2x4096x4x1, .f32⟩
  | 103 => ⟨S2x4096x4x4, .f32⟩
  | 104 => ⟨S2x4096x4x4, .f32⟩
  | 105 => ⟨S_, .f32⟩
  | 106 => ⟨S2x4096x4, .f32⟩
  | 107 => ⟨S2x4096x1x4, .f32⟩
  | 108 => ⟨S_, .f32⟩
  | 109 => ⟨S2x4096x1x4, .f32⟩
  | 110 => ⟨S2x4096x1x4, .f32⟩
  | 111 => ⟨S2x4096x4x4, .f32⟩
  | 112 => ⟨S2x4096x4x4, .f32⟩
  | 113 => ⟨S2x4096x4x1, .f32⟩
  | 114 => ⟨S2x4096x4x2048, .f32⟩
  | 115 => ⟨S2x4096x4x2048, .f32⟩
  | 116 => ⟨S_, .f32⟩
  | 117 => ⟨S2x4096x2048, .f32⟩
  | _ => ⟨S2x4096x4x2048, .f32⟩

abbrev hbmTy (i : Nat) : BufTy := match i / 128 with
  | 0 => hbmTy0_0 i
  | 1 => hbmTy0_1 i
  | _ => ⟨S2x4096x4x2048, .f32⟩

abbrev bufTy : (tb : Table) → Fin (tcTables nBuf tb) → BufTy
  | .hbm, ⟨i, _⟩ => hbmTy i
  | _, _ => ⟨S2x4096x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_cst_16 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_21 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_23 : Ref sig .tc := ⟨.hbm, 129, rfl⟩
abbrev main_v101 : Ref sig .tc := ⟨.hbm, 130, rfl⟩
abbrev main_v102 : Ref sig .tc := ⟨.hbm, 131, rfl⟩
abbrev main_cst_24 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_25 : Ref sig .tc := ⟨.hbm, 137, rfl⟩
abbrev main_v107 : Ref sig .tc := ⟨.hbm, 138, rfl⟩
abbrev main_v108 : Ref sig .tc := ⟨.hbm, 139, rfl⟩
abbrev main_cst_26 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_27 : Ref sig .tc := ⟨.hbm, 145, rfl⟩
abbrev main_v113 : Ref sig .tc := ⟨.hbm, 146, rfl⟩
abbrev main_v114 : Ref sig .tc := ⟨.hbm, 147, rfl⟩
abbrev main_cst_28 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_29 : Ref sig .tc := ⟨.hbm, 153, rfl⟩
abbrev main_v119 : Ref sig .tc := ⟨.hbm, 154, rfl⟩
abbrev main_v120 : Ref sig .tc := ⟨.hbm, 155, rfl⟩
abbrev main_cst_30 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_31 : Ref sig .tc := ⟨.hbm, 161, rfl⟩
abbrev main_v125 : Ref sig .tc := ⟨.hbm, 162, rfl⟩
abbrev main_v126 : Ref sig .tc := ⟨.hbm, 163, rfl⟩
abbrev main_cst_32 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_33 : Ref sig .tc := ⟨.hbm, 169, rfl⟩
abbrev main_v131 : Ref sig .tc := ⟨.hbm, 170, rfl⟩
abbrev main_v132 : Ref sig .tc := ⟨.hbm, 171, rfl⟩
abbrev main_cst_34 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_35 : Ref sig .tc := ⟨.hbm, 177, rfl⟩
abbrev main_v137 : Ref sig .tc := ⟨.hbm, 178, rfl⟩
abbrev main_v138 : Ref sig .tc := ⟨.hbm, 179, rfl⟩
abbrev main_cst_36 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_37 : Ref sig .tc := ⟨.hbm, 185, rfl⟩
abbrev main_v143 : Ref sig .tc := ⟨.hbm, 186, rfl⟩
abbrev main_v144 : Ref sig .tc := ⟨.hbm, 187, rfl⟩
abbrev main_cst_38 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_39 : Ref sig .tc := ⟨.hbm, 193, rfl⟩
abbrev main_v149 : Ref sig .tc := ⟨.hbm, 194, rfl⟩
abbrev main_v150 : Ref sig .tc := ⟨.hbm, 195, rfl⟩
abbrev main_cst_40 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_41 : Ref sig .tc := ⟨.hbm, 201, rfl⟩
abbrev main_v155 : Ref sig .tc := ⟨.hbm, 202, rfl⟩
abbrev main_v156 : Ref sig .tc := ⟨.hbm, 203, rfl⟩
abbrev main_cst_42 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_cst_43 : Ref sig .tc := ⟨.hbm, 209, rfl⟩
abbrev main_v161 : Ref sig .tc := ⟨.hbm, 210, rfl⟩
abbrev main_v162 : Ref sig .tc := ⟨.hbm, 211, rfl⟩
abbrev main_cst_44 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_cst_45 : Ref sig .tc := ⟨.hbm, 217, rfl⟩
abbrev main_v167 : Ref sig .tc := ⟨.hbm, 218, rfl⟩
abbrev main_v168 : Ref sig .tc := ⟨.hbm, 219, rfl⟩
abbrev main_cst_46 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_cst_47 : Ref sig .tc := ⟨.hbm, 225, rfl⟩
abbrev main_v173 : Ref sig .tc := ⟨.hbm, 226, rfl⟩
abbrev main_v174 : Ref sig .tc := ⟨.hbm, 227, rfl⟩
abbrev main_cst_48 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_49 : Ref sig .tc := ⟨.hbm, 233, rfl⟩
abbrev main_v179 : Ref sig .tc := ⟨.hbm, 234, rfl⟩
abbrev main_v180 : Ref sig .tc := ⟨.hbm, 235, rfl⟩
abbrev main_cst_50 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_51 : Ref sig .tc := ⟨.hbm, 244, rfl⟩
abbrev main_v188 : Ref sig .tc := ⟨.hbm, 245, rfl⟩

abbrev nD : Nat := 1
abbrev τ : Topo := Topo.v7x

variable {F : FTy → Type} [FloatOps F]

class Facts₀ : Prop where
  shapeCasts_S2x4096x4x2048_S2x4096x8192 : S2x4096x4x2048.ShapeCasts S2x4096x8192
  reducesTo_S2x4096x8192_S2x4096_d2 : S2x4096x8192.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x8192_0_1_2 : S2x4096x1.BroadcastsInDim S2x4096x8192 (![0, 1, 2] : Fin 3 → Fin S2x4096x8192.rank)
  slices_S2x4096x24_S2x4096x4_0_0_0 : S2x4096x24.Slices ![0, 0, 0] S2x4096x4
  slices_S3_S1_0 : S3.Slices ![0] S1
  shapeCasts_S1_S_ : S1.ShapeCasts S_
  bcast_S_S2x4096x4 : S_.BroadcastsInDim S2x4096x4 (![] : Fin 0 → Fin S2x4096x4.rank)
  slices_S24_S4_0 : S24.Slices ![0] S4
  bcast_S4_S1x1x4_2 : S4.BroadcastsInDim S1x1x4 (![2] : Fin 1 → Fin S1x1x4.rank)
  bcast_S1x1x4_S2x4096x4_0_1_2 : S1x1x4.BroadcastsInDim S2x4096x4 (![0, 1, 2] : Fin 3 → Fin S2x4096x4.rank)
  slices_S2x4096x24_S2x4096x4_0_0_4 : S2x4096x24.Slices ![0, 0, 4] S2x4096x4
  slices_S3_S1_1 : S3.Slices ![1] S1
  slices_S24_S4_4 : S24.Slices ![4] S4
  slices_S2x4096x24_S2x4096x16_0_0_8 : S2x4096x24.Slices ![0, 0, 8] S2x4096x16
  shapeCasts_S2x4096x16_S2x4096x4x4 : S2x4096x16.ShapeCasts S2x4096x4x4
  slices_S3_S1_2 : S3.Slices ![2] S1
  bcast_S_S2x4096x4x4 : S_.BroadcastsInDim S2x4096x4x4 (![] : Fin 0 → Fin S2x4096x4x4.rank)
  slices_S24_S16_8 : S24.Slices ![8] S16
  shapeCasts_S16_S4x4 : S16.ShapeCasts S4x4
  bcast_S4x4_S1x1x4x4_2_3 : S4x4.BroadcastsInDim S1x1x4x4 (![2, 3] : Fin 2 → Fin S1x1x4x4.rank)
  bcast_S1x1x4x4_S2x4096x4x4_0_1_2_3 : S1x1x4x4.BroadcastsInDim S2x4096x4x4 (![0, 1, 2, 3] : Fin 4 → Fin S2x4096x4x4.rank)
  reducesTo_S2x4096x4x4_S2x4096x4_d3 : S2x4096x4x4.ReducesTo [3] S2x4096x4
  bcast_S2x4096x4_S2x4096x4x1_0_1_2 : S2x4096x4.BroadcastsInDim S2x4096x4x1 (![0, 1, 2] : Fin 3 → Fin S2x4096x4x1.rank)
  bcast_S_S2x4096x4x1 : S_.BroadcastsInDim S2x4096x4x1 (![] : Fin 0 → Fin S2x4096x4x1.rank)
  bcast_S2x4096x4x1_S2x4096x4x4_0_1_2_3 : S2x4096x4x1.BroadcastsInDim S2x4096x4x4 (![0, 1, 2, 3] : Fin 4 → Fin S2x4096x4x4.rank)
  reducesTo_S2x4096x4x4_S2x4096x4_d2 : S2x4096x4x4.ReducesTo [2] S2x4096x4
  bcast_S2x4096x4_S2x4096x1x4_0_1_3 : S2x4096x4.BroadcastsInDim S2x4096x1x4 (![0, 1, 3] : Fin 3 → Fin S2x4096x1x4.rank)
  bcast_S_S2x4096x1x4 : S_.BroadcastsInDim S2x4096x1x4 (![] : Fin 0 → Fin S2x4096x1x4.rank)
  bcast_S2x4096x1x4_S2x4096x4x4_0_1_2_3 : S2x4096x1x4.BroadcastsInDim S2x4096x4x4 (![0, 1, 2, 3] : Fin 4 → Fin S2x4096x4x4.rank)
  bcast_S2x4096x4x1_S2x4096x4x2048_0_1_2_3 : S2x4096x4x1.BroadcastsInDim S2x4096x4x2048 (![0, 1, 2, 3] : Fin 4 → Fin S2x4096x4x2048.rank)
  reducesTo_S2x4096x4x2048_S2x4096x2048_d2 : S2x4096x4x2048.ReducesTo [2] S2x4096x2048
  dot_S2x4096x8192_S24x8192_S2x4096x24_2_1_01_0_n_n_wf : DotDims.WF S2x4096x8192 S24x8192 S2x4096x24 [2] [1] [0, 1] [0] [] []

variable [Facts₀]

def dot_S2x4096x8192_S24x8192_S2x4096x24_2_1_01_0_n_n : DotDims S2x4096x8192 S24x8192 S2x4096x24 where
  lhsContracting := [2]
  rhsContracting := [1]
  lhsNonContracting := [0, 1]
  rhsNonContracting := [0]
  lhsBatch := []
  rhsBatch := []
  wf := dot_S2x4096x8192_S24x8192_S2x4096x24_2_1_01_0_n_n_wf

class Facts : Prop extends Facts₀ where

variable [Facts]
-- ==== Proof.Token.lean ====
/-
  One token's computation, over the extended reals, and the three result arrays as functions of the four argument arrays.

  A token is one row x of 8192 numbers (4 streams of 2048). Its inverse root mean square is
  rsqrt (Σ x² / 8192 + ε_r); the normalised row is projected on the 24 rows of the weight matrix w; entries 0..3 of the
  projection (scaled by sc 0, shifted by the bias) gate the streams (pre), entries 4..7 (scaled by sc 1) are the
  post gates, entries 8..23 (scaled by sc 2), laid out 4 × 4 row by row, start a 4 × 4 matrix that is then normalised
  ten times, rows first and columns second (each time dividing by the sum plus ε_h). The collapsed row is the
  pre-gated sum of the four streams. A gate is the logistic function plus ε_h.
-/
import Idealize.ShloMosaic.PureOps.Ideal
import Idealize.ShloMosaic.Lib.ValueIdx

noncomputable section

open scoped BigOperators

namespace Cert.Token

open Idealize.ShloMosaic Idealize.ShloMosaic.ValueIdx

/-- The row length 8192 as both programs write it. -/
def len : EReal := Ideal.ofBits .f32 0x46000000#32
/-- The epsilon under the root. -/
def epsR : EReal := Ideal.ofBits .f32 0x358637BD#32
/-- The epsilon of the gates and of the matrix normalisation. -/
def epsH : EReal := Ideal.ofBits .f32 0x3727C5AC#32

/-- rsqrt (Σ x² / 8192 + ε_r). -/
def invRms (x : Fin 8192 → EReal) : EReal := Ideal.rsqrt (Ideal.div (∑ k, x k * x k) len + epsR)

/-- Entry n of the projection of the normalised row. -/
def proj (x : Fin 8192 → EReal) (w : Fin 24 → Fin 8192 → EReal) (n : Fin 24) : EReal :=
  ∑ k, (x k * invRms x) * w n k

/-- The logistic function plus ε_h. -/
def gate (z : EReal) : EReal := Ideal.logistic z + epsH

/-- The gate of stream h. -/
def pre (x : Fin 8192 → EReal) (w : Fin 24 → Fin 8192 → EReal) (sc : Fin 3 → EReal) (ba : Fin 24 → EReal) (h : Fin 4) : EReal :=
  gate (proj x w ⟨h.val, by omega⟩ * sc 0 + ba ⟨h.val, by omega⟩)

/-- The post gate of stream h. -/
def post (x : Fin 8192 → EReal) (w : Fin 24 → Fin 8192 → EReal) (sc : Fin 3 → EReal) (ba : Fin 24 → EReal) (h : Fin 4) : EReal :=
  gate (proj x w ⟨4 + h.val, by omega⟩ * sc 1 + ba ⟨4 + h.val, by omega⟩)

/-- The 4 × 4 matrix before its normalisation: entry (i, j) comes from entry 8 + 4 i + j of the projection. -/
def comb0 (x : Fin 8192 → EReal) (w : Fin 24 → Fin 8192 → EReal) (sc : Fin 3 → EReal) (ba : Fin 24 → EReal) (i j : Fin 4) : EReal :=
  gate (proj x w ⟨8 + (i.val * 4 + j.val), by omega⟩ * sc 2 + ba ⟨8 + (i.val * 4 + j.val), by omega⟩)

/-- Every entry divided by its row's sum plus ε_h. -/
def rowN (c : Fin 4 → Fin 4 → EReal) : Fin 4 → Fin 4 → EReal := fun i j => Ideal.div (c i j) ((∑ j', c i j') + epsH)

/-- Every entry divided by its column's sum plus ε_h. -/
def colN (c : Fin 4 → Fin 4 → EReal) : Fin 4 → Fin 4 → EReal := fun i j => Ideal.div (c i j) ((∑ i', c i' j) + epsH)

/-- Ten rounds of rows-then-columns. -/
def sinkhorn (c : Fin 4 → Fin 4 → EReal) : Fin 4 → Fin 4 → EReal := (fun c => colN (rowN c))^[10] c

/-- Entry d of the collapsed row: Σ_h pre h · x (h · 2048 + d). -/
def collapse (x : Fin 8192 → EReal) (w : Fin 24 → Fin 8192 → EReal) (sc : Fin 3 → EReal) (ba : Fin 24 → EReal) (d : Fin 2048) : EReal :=
  ∑ h : Fin 4, pre x w sc ba h * x ⟨h.val * 2048 + d.val, by omega⟩

/-! ## The arrays -/

/-- Token (b, s)'s row of the [2, 4096, 4, 2048] array: stream k / 2048, entry k % 2048. -/
def tokRow (a0 : (⟨4, ![2, 4096, 4, 2048]⟩ : Shape).Idx → EReal) (b : Fin 2) (s : Fin 4096) : Fin 8192 → EReal :=
  fun k => a0 (ix4 b s (⟨k.val / 2048, by omega⟩ : Fin 4) (⟨k.val % 2048, by omega⟩ : Fin 2048))

/-- The weight matrix by rows. -/
def wMat (a1 : (⟨2, ![24, 8192]⟩ : Shape).Idx → EReal) : Fin 24 → Fin 8192 → EReal := fun n k => a1 (ix2 n k)

/-- A rank-1 array by its entries. -/
def vec {n : Nat} (a : (⟨1, ![n]⟩ : Shape).Idx → EReal) : Fin n → EReal := fun k => a (ix1 k)

variable (a0 : (⟨4, ![2, 4096, 4, 2048]⟩ : Shape).Idx → EReal) (a1 : (⟨2, ![24, 8192]⟩ : Shape).Idx → EReal)
  (a2 : (⟨1, ![24]⟩ : Shape).Idx → EReal) (a3 : (⟨1, ![3]⟩ : Shape).Idx → EReal)

/-- The post gates, [2, 4096, 4]. -/
def outPost : (⟨3, ![2, 4096, 4]⟩ : Shape).Idx → EReal :=
  fun i => post (tokRow a0 (i 0) (i 1)) (wMat a1) (vec a3) (vec a2) (i 2)

/-- The normalised matrices, [2, 4096, 4, 4]. -/
def outComb : (⟨4, ![2, 4096, 4, 4]⟩ : Shape).Idx → EReal :=
  fun i => sinkhorn (comb0 (tokRow a0 (i 0) (i 1)) (wMat a1) (vec a3) (vec a2)) (i 2) (i 3)

/-- The collapsed rows, [2, 4096, 2048]. -/
def outColl : (⟨3, ![2, 4096, 2048]⟩ : Shape).Idx → EReal :=
  fun i => collapse (tokRow a0 (i 0) (i 1)) (wMat a1) (vec a3) (vec a2) (i 2)

theorem outPost_ix (b : Fin 2) (s : Fin 4096) (h : Fin 4) :
    outPost a0 a1 a2 a3 (ix3 b s h) = post (tokRow a0 b s) (wMat a1) (vec a3) (vec a2) h := rfl

theorem outComb_ix (b : Fin 2) (s : Fin 4096) (i j : Fin 4) :
    outComb a0 a1 a2 a3 (ix4 b s i j) = sinkhorn (comb0 (tokRow a0 b s) (wMat a1) (vec a3) (vec a2)) i j := rfl

theorem outColl_ix (b : Fin 2) (s : Fin 4096) (d : Fin 2048) :
    outColl a0 a1 a2 a3 (ix3 b s d) = collapse (tokRow a0 b s) (wMat a1) (vec a3) (vec a2) d := rfl

end Cert.Token

end
-- ==== Proof.Blocks.lean ====
/-
  The kernel's launch side, read as arrays.

  The grid has 2 × 16 points; point (q₀, q₁) fetches rows 256 q₁ … 256 q₁ + 255 of batch q₀ of the token array — the
  [2, 4096, 4, 2048] argument flattened to [2, 4096, 8192], so that entry k of a row is stream k / 2048, entry k % 2048 —,
  the whole transposed weight matrix (entry (k, n) of the block is entry (n, k) of the argument; the change of float format
  is the identity over the extended reals), the whole bias and the whole scale vector, and writes back the same rows of
  the three result arrays. Here: each fetched block as a function of the argument arrays, that the written blocks tile
  each result array, and the run with every result array named.
-/
import proofs.«124175_j13761075216602_1_alg».proof.Proof.Gen.KernelIdeal.Frame
import proofs.«124175_j13761075216602_1_alg».proof.Proof.Token
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem V_v0 (c : Dev nD) : (V m c main_v0 : S2x4096x8192.Idx → EReal)
    = shapeCast S2x4096x8192 (m ((c : Thread nD τ).loc main_arg0)) shapeCasts_S2x4096x4x2048_S2x4096x8192 := by
  dsimp only [Gen.V, Gen.hostOps0]; after_results; rfl

theorem V_v2 (c : Dev nD) : (V m c main_v2 : S8192x24.Idx → EReal)
    = (transpose S8192x24 [1, 0] (truncf (F := Ideal) .bf16 (m ((c : Thread nD τ).loc main_arg1) : FVec Ideal S24x8192 .f32) bitsLt_bf16_f32) transposes_S24x8192_S8192x24_1_0 : FVec Ideal S8192x24 .bf16) := by
  dsimp only [Gen.V, Gen.hostOps0]; after_results

theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 2) = 0 ∧ win0_1.index t (1 : Fin 2) = 0 ∧ win0_2.index t (0 : Fin 1) = 0 ∧ win0_3.index t (0 : Fin 1) = 0
    ∧ win0_4.index t (0 : Fin 3) ≤ 1 ∧ win0_4.index t (1 : Fin 3) ≤ 15 ∧ win0_4.index t (2 : Fin 3) = 0
    ∧ win0_5.index t (0 : Fin 4) = win0_4.index t (0 : Fin 3) ∧ win0_5.index t (1 : Fin 4) = win0_4.index t (1 : Fin 3) ∧ win0_5.index t (2 : Fin 4) = 0 ∧ win0_5.index t (3 : Fin 4) = 0
    ∧ win0_6.index t (0 : Fin 3) = win0_4.index t (0 : Fin 3) ∧ win0_6.index t (1 : Fin 3) = win0_4.index t (1 : Fin 3) ∧ win0_6.index t (2 : Fin 3) = 0 :=
  (by decide +kernel : ∀ t : Fin grid0.N, _)

theorem idx_onto : ∀ (q0 : Fin 2) (q1 : Fin 16), ∃ t : Fin cfg0.N, win0_4.index t (0 : Fin 3) = q0.val ∧ win0_4.index t (1 : Fin 3) = q1.val :=
  (by decide +kernel : ∀ (q0 : Fin 2) (q1 : Fin 16), ∃ t : Fin grid0.N, win0_4.index t (0 : Fin 3) = q0.val ∧ win0_4.index t (1 : Fin 3) = q1.val)

/-- The token block at a point holds rows 256 q₁ … 256 q₁ + 255 of batch q₀ of the flattened array. -/
theorem iblk0_apply (c : Dev nD) (t : Fin cfg0.N) (r : Fin 256) (k : Fin 8192) (b : Fin 2) (s : Fin 4096)
    (hb : b.val = win0_4.index t (0 : Fin 3)) (hs : s.val = win0_4.index t (1 : Fin 3) * 256 + r.val) :
    (iblk m c 0 t : Vec Ideal S1x256x8192 .f32) (ix3 (0 : Fin 1) r k) = Cert.Token.tokRow (m ((c : Thread nD τ).loc main_arg0)) b s k := by
  obtain ⟨e0, e1, e2, -⟩ := idx_facts t
  unfold iblk
  rw [View.read_apply]
  show V m c main_v0 _ = _
  rw [V_v0]
  have hk : k.val < 8192 := k.isLt
  have hr : r.val < 256 := r.isLt
  refine (shapeCast_apply _ _ _ (ix4 b s (⟨k.val / 2048, by omega⟩ : Fin 4) (⟨k.val % 2048, by omega⟩ : Fin 2048)) ?_).trans rfl
  rw [Shape.rowMajor_val_three, Shape.rowMajor_val_four]
  show ((b.val * 4096 + s.val) * 4 + k.val / 2048) * 2048 + k.val % 2048
    = ((win0_0.index t (0 : Fin 3) * 1 + 1 * 0) * 4096 + (win0_0.index t (1 : Fin 3) * 256 + 1 * r.val)) * 8192 + (win0_0.index t (2 : Fin 3) * 8192 + 1 * k.val)
  omega

/-- The weight block is the whole transposed matrix: entry (k, n) of it is entry (n, k) of the argument. -/
theorem iblk1_apply (c : Dev nD) (t : Fin cfg0.N) (k : Fin 8192) (n : Fin 24) :
    (iblk m c 1 t : Vec Ideal S8192x24 .bf16) (ix2 k n) = Cert.Token.wMat (m ((c : Thread nD τ).loc main_arg1)) n k := by
  obtain ⟨-, -, -, e3, e4, -⟩ := idx_facts t
  unfold iblk
  rw [View.read_apply]
  show V m c main_v2 _ = _
  rw [V_v2]
  refine (transpose_apply _ _ _ _ (ix2 n k) ?_).trans rfl
  intro a
  match a with
  | ⟨0, _⟩ => show k.val = win0_1.index t (0 : Fin 2) * 8192 + 1 * k.val; omega
  | ⟨1, _⟩ => show n.val = win0_1.index t (1 : Fin 2) * 24 + 1 * n.val; omega

/-- The bias block is the whole bias. -/
theorem iblk2_apply (c : Dev nD) (t : Fin cfg0.N) (k : Fin 24) :
    (iblk m c 2 t : Vec Ideal S24 .f32) (ix1 k) = Cert.Token.vec (m ((c : Thread nD τ).loc main_arg2)) k := by
  obtain ⟨-, -, -, -, -, e5, -⟩ := idx_facts t
  unfold iblk
  rw [View.read_apply]
  show V m c main_arg2 _ = _
  rw [V_main_arg2]
  show (m ((c : Thread nD τ).loc main_arg2) : S24.Idx → EReal) _ = (m ((c : Thread nD τ).loc main_arg2) : S24.Idx → EReal) (ix1 k)
  congr 1
  funext a; apply Fin.ext
  match a with
  | ⟨0, _⟩ => show win0_2.index t (0 : Fin 1) * 24 + 1 * k.val = k.val; omega

/-- The scale block is the whole scale vector. -/
theorem iblk3_apply (c : Dev nD) (t : Fin cfg0.N) (k : Fin 3) :
    (iblk m c 3 t : Vec Ideal S3 .f32) (ix1 k) = Cert.Token.vec (m ((c : Thread nD τ).loc main_arg3)) k := by
  obtain ⟨-, -, -, -, -, -, e6, -⟩ := idx_facts t
  unfold iblk
  rw [View.read_apply]
  show V m c main_arg3 _ = _
  rw [V_main_arg3]
  show (m ((c : Thread nD τ).loc main_arg3) : S3.Idx → EReal) _ = (m ((c : Thread nD τ).loc main_arg3) : S3.Idx → EReal) (ix1 k)
  congr 1
  funext a; apply Fin.ext
  match a with
  | ⟨0, _⟩ => show win0_3.index t (0 : Fin 1) * 3 + 1 * k.val = k.val; omega

/-! ## The output blocks tile the result arrays -/

theorem mem_blk4 (t : Fin cfg0.N) (i : S2x4096x4.Idx) :
    i ∈ ((cfg0.win 4).blk t).view.set ↔ ∀ a : Fin 3, win0_4.index t a * S1x256x4.size a ≤ (i a).val ∧ (i a).val < win0_4.index t a * S1x256x4.size a + S1x256x4.size a := by
  show i ∈ ((View.whole main_v3_0).slice (win0_4.rect t)).set ↔ _
  rw [View.set_slice_whole, Rect.mem_set_unit]
  exact Iff.rfl

theorem mem_blk5 (t : Fin cfg0.N) (i : S2x4096x4x4.Idx) :
    i ∈ ((cfg0.win 5).blk t).view.set ↔ ∀ a : Fin 4, win0_5.index t a * S1x256x4x4.size a ≤ (i a).val ∧ (i a).val < win0_5.index t a * S1x256x4x4.size a + S1x256x4x4.size a := by
  show i ∈ ((View.whole main_v3_1).slice (win0_5.rect t)).set ↔ _
  rw [View.set_slice_whole, Rect.mem_set_unit]
  exact Iff.rfl

theorem mem_blk6 (t : Fin cfg0.N) (i : S2x4096x2048.Idx) :
    i ∈ ((cfg0.win 6).blk t).view.set ↔ ∀ a : Fin 3, win0_6.index t a * S1x256x2048.size a ≤ (i a).val ∧ (i a).val < win0_6.index t a * S1x256x2048.size a + S1x256x2048.size a := by
  show i ∈ ((View.whole main_v3_2).slice (win0_6.rect t)).set ↔ _
  rw [View.set_slice_whole, Rect.mem_set_unit]
  exact Iff.rfl

/-- Every entry (b, s, h) of the post-gate array lies in the block of the point (b, s / 256). -/
theorem cover4 (i : S2x4096x4.Idx) : ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 4 := (i 2).isLt
  obtain ⟨t, q0, q1⟩ := idx_onto ⟨(i 0).val, hi0⟩ ⟨(i 1).val / 256, by omega⟩
  have q0' : win0_4.index t (0 : Fin 3) = (i 0).val := q0
  have q1' : win0_4.index t (1 : Fin 3) = (i 1).val / 256 := q1
  obtain ⟨-, -, -, -, -, -, -, -, -, e9, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4 ≤ (i 2).val ∧ (i 2).val < win0_4.index t (2 : Fin 3) * 4 + 4; omega

theorem cover5 (i : S2x4096x4x4.Idx) : ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 4 := (i 2).isLt
  have hi3 : (i 3).val < 4 := (i 3).isLt
  obtain ⟨t, q0, q1⟩ := idx_onto ⟨(i 0).val, hi0⟩ ⟨(i 1).val / 256, by omega⟩
  have q0' : win0_4.index t (0 : Fin 3) = (i 0).val := q0
  have q1' : win0_4.index t (1 : Fin 3) = (i 1).val / 256 := q1
  obtain ⟨-, -, -, -, -, -, -, -, -, -, f0, f1, f2, f3, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 256 ≤ (i 1).val ∧ (i 1).val < win0_5.index t (1 : Fin 4) * 256 + 256; omega
  | ⟨2, _⟩ => show win0_5.index t (2 : Fin 4) * 4 ≤ (i 2).val ∧ (i 2).val < win0_5.index t (2 : Fin 4) * 4 + 4; omega
  | ⟨3, _⟩ => show win0_5.index t (3 : Fin 4) * 4 ≤ (i 3).val ∧ (i 3).val < win0_5.index t (3 : Fin 4) * 4 + 4; omega

theorem cover6 (i : S2x4096x2048.Idx) : ∃ t : Fin cfg0.N, (cfg0.win 6).flush t = true ∧ i ∈ ((cfg0.win 6).blk t).view.set := by
  have hi0 : (i 0).val < 2 := (i 0).isLt
  have hi1 : (i 1).val < 4096 := (i 1).isLt
  have hi2 : (i 2).val < 2048 := (i 2).isLt
  obtain ⟨t, q0, q1⟩ := idx_onto ⟨(i 0).val, hi0⟩ ⟨(i 1).val / 256, by omega⟩
  have q0' : win0_4.index t (0 : Fin 3) = (i 0).val := q0
  have q1' : win0_4.index t (1 : Fin 3) = (i 1).val / 256 := q1
  obtain ⟨-, -, -, -, -, -, -, -, -, -, -, -, -, -, g0, g1, g2⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 2048 ≤ (i 2).val ∧ (i 2).val < win0_6.index t (2 : Fin 3) * 2048 + 2048; omega

/-! ## The run, with each result array named -/

/-- After the run each result array is what the points' write-backs left, and the four arguments are as launched. -/
theorem run_arrays : θ_run defs (onTc (τ := τ) (main (F := Ideal))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Hand

end
-- ==== Proof.KerBody.lean ====
/-
  The kernel's arithmetic, read one token at a time.

  The kernel works on a block of 256 tokens. This module reads each of its stored values at one token r of the block
  and finds one token's computation there: the projection of the normalised row on the weight rows, the two linear
  parts that feed the gates, and the 4 × 4 matrix after its twenty normalisation half-steps (ten rounds of
  rows-then-columns). No algebra on the extended reals is involved: after the layout operations are read at an index,
  both sides are the same formula.
-/
import proofs.«124175_j13761075216602_1_alg».proof.Proof.Token
import proofs.«124175_j13761075216602_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KerBody

open Cert.KernelIdeal Cert.KernelIdeal.Gen Idealize.ShloMosaic Idealize.ShloMosaic.ValueIdx

/-! ## The two normalisation half-steps -/

/-- The constant ε_h as the kernel writes it. -/
abbrev epsK : Ideal .f32 := Scalar.ofBits .f32 0x3727C5AC#32

/-- A row half-step on the block: every entry divided by (the sum over the last axis, plus ε_h). -/
def rowStep (x : FVec Ideal S256x4x4 .f32) : FVec Ideal S256x4x4 .f32 :=
  divf x (broadcastTo S256x4x4 (addf (shapeCast S256x4x1 (multiReduction .add [2] S256x4 x 0x00000000#32 reduces_S256x4x4_S256x4 (.inl rfl) rfl) shapeCasts_S256x4_S256x4x1) (broadcast S256x4x1 epsK)) broadcasts_S256x4x1_S256x4x4)

/-- A column half-step on the block: every entry divided by (the sum over the middle axis, plus ε_h). -/
def colStep (x : FVec Ideal S256x4x4 .f32) : FVec Ideal S256x4x4 .f32 :=
  divf x (broadcastTo S256x4x4 (addf (shapeCast S256x1x4 (multiReduction .add [1] S256x4 x 0x00000000#32 reduces_S256x4x4_S256x4_2 (.inl rfl) rfl) shapeCasts_S256x4_S256x1x4) (broadcast S256x1x4 epsK)) broadcasts_S256x1x4_S256x4x4)

/-- The sum over the last axis at (r, i) is the sum of row i of token r's matrix. -/
theorem rowSum_apply (x : FVec Ideal S256x4x4 .f32) (hφ : FKind.Formats .f32)
    (hacc : (0x00000000#32 : BitVec 32) = FKind.add.neutral .f32 hφ) (r : Fin 256) (i : Fin 4) :
    multiReduction .add [2] S256x4 x 0x00000000#32 reduces_S256x4x4_S256x4 hφ hacc (ix2 r i) = ∑ j' : Fin 4, x (ix3 r i j') := by
  refine (Ideal.multiReduction_add_single x _ reduces_S256x4x4_S256x4 hφ hacc (ix2 r i)).trans ?_
  refine Finset.sum_congr rfl fun k _ => congrArg x (funext fun a => Fin.ext ?_)
  match a with
  | ⟨0, _⟩ => rfl
  | ⟨1, _⟩ => rfl
  | ⟨2, _⟩ => rfl

/-- The sum over the middle axis at (r, j) is the sum of column j of token r's matrix. -/
theorem colSum_apply (x : FVec Ideal S256x4x4 .f32) (hφ : FKind.Formats .f32)
    (hacc : (0x00000000#32 : BitVec 32) = FKind.add.neutral .f32 hφ) (r : Fin 256) (j : Fin 4) :
    multiReduction .add [1] S256x4 x 0x00000000#32 reduces_S256x4x4_S256x4_2 hφ hacc (ix2 r j) = ∑ i' : Fin 4, x (ix3 r i' j) := by
  refine (Ideal.multiReduction_add_single x _ reduces_S256x4x4_S256x4_2 hφ hacc (ix2 r j)).trans ?_
  refine Finset.sum_congr rfl fun k _ => congrArg x (funext fun a => Fin.ext ?_)
  match a with
  | ⟨0, _⟩ => rfl
  | ⟨1, _⟩ => rfl
  | ⟨2, _⟩ => rfl

/-- A row half-step at token r is the row normalisation of token r's matrix. -/
theorem rowStep_apply (x : FVec Ideal S256x4x4 .f32) (r : Fin 256) (i j : Fin 4) :
    rowStep x (ix3 r i j) = Cert.Token.rowN (fun i j => x (ix3 r i j)) i j := by
  show Ideal.div (x (ix3 r i j)) _ = Ideal.div (x (ix3 r i j)) _
  refine congrArg (Ideal.div (x (ix3 r i j))) ?_
  refine (broadcastTo_apply _ broadcasts_S256x4x1_S256x4x4 (ix3 r i j) (ix3 r i (0 : Fin 1)) fun a => ?_).trans ?_
  · match a with
    | ⟨0, _⟩ => rfl
    | ⟨1, _⟩ => rfl
    | ⟨2, _⟩ => rfl
  show _ + _ = _ + _
  refine congrArg (· + Cert.Token.epsH) ?_
  refine (shapeCast_apply _ shapeCasts_S256x4_S256x4x1 (ix3 r i (0 : Fin 1)) (ix2 r i) ?_).trans (rowSum_apply x _ _ r i)
  rw [Shape.rowMajor_val_two, Shape.rowMajor_val_three]
  show r.val * 4 + i.val = (r.val * 4 + i.val) * 1 + 0
  omega

/-- A column half-step at token r is the column normalisation of token r's matrix. -/
theorem colStep_apply (x : FVec Ideal S256x4x4 .f32) (r : Fin 256) (i j : Fin 4) :
    colStep x (ix3 r i j) = Cert.Token.colN (fun i j => x (ix3 r i j)) i j := by
  show Ideal.div (x (ix3 r i j)) _ = Ideal.div (x (ix3 r i j)) _
  refine congrArg (Ideal.div (x (ix3 r i j))) ?_
  refine (broadcastTo_apply _ broadcasts_S256x1x4_S256x4x4 (ix3 r i j) (ix3 r (0 : Fin 1) j) fun a => ?_).trans ?_
  · match a with
    | ⟨0, _⟩ => rfl
    | ⟨1, _⟩ => rfl
    | ⟨2, _⟩ => rfl
  show _ + _ = _ + _
  refine congrArg (· + Cert.Token.epsH) ?_
  refine (shapeCast_apply _ shapeCasts_S256x4_S256x1x4 (ix3 r (0 : Fin 1) j) (ix2 r j) ?_).trans (colSum_apply x _ _ r j)
  rw [Shape.rowMajor_val_two, Shape.rowMajor_val_three]
  show r.val * 4 + j.val = (r.val * 1 + 0) * 4 + j.val
  omega

/-! ## Ten rounds of rows-then-columns -/

/-- Token r's 4 × 4 matrix in a block. -/
def tok (x : FVec Ideal S256x4x4 .f32) (r : Fin 256) : Fin 4 → Fin 4 → EReal := fun i j => x (ix3 r i j)

theorem tok_rowStep (x : FVec Ideal S256x4x4 .f32) (r : Fin 256) : tok (rowStep x) r = Cert.Token.rowN (tok x r) :=
  funext fun i => funext fun j => rowStep_apply x r i j

theorem tok_colStep (x : FVec Ideal S256x4x4 .f32) (r : Fin 256) : tok (colStep x) r = Cert.Token.colN (tok x r) :=
  funext fun i => funext fun j => colStep_apply x r i j

/-- One round on the block: rows, then columns. -/
def round (x : FVec Ideal S256x4x4 .f32) : FVec Ideal S256x4x4 .f32 := colStep (rowStep x)

theorem tok_round (x : FVec Ideal S256x4x4 .f32) (r : Fin 256) :
    tok (round x) r = Cert.Token.colN (Cert.Token.rowN (tok x r)) := by
  unfold round
  rw [tok_colStep, tok_rowStep]

/-- n rounds on the block are n rounds on every token's matrix. -/
theorem tok_iter (n : Nat) (x : FVec Ideal S256x4x4 .f32) (r : Fin 256) :
    tok (round^[n] x) r = (fun c => Cert.Token.colN (Cert.Token.rowN c))^[n] (tok x r) := by
  induction n with
  | zero => rfl
  | succ n ih => rw [Function.iterate_succ_apply', Function.iterate_succ_apply', tok_round, ih]

/-- The gate on the block: the logistic function plus ε_h. -/
def gateK (v : FVec Ideal S256x4x4 .f32) : FVec Ideal S256x4x4 .f32 := addf (logistic v) (broadcast S256x4x4 epsK)

theorem gateK_apply (v : FVec Ideal S256x4x4 .f32) (j : S256x4x4.Idx) : gateK v j = Cert.Token.gate (v j) := rfl

/-- The first stretch: the gate and three rounds. -/
theorem pay11_eq (v : FVec Ideal S256x4x4 .f32) : k0_pay11 v = round (round (round (gateK v))) := rfl

/-- The second stretch: three rounds and a row half-step. -/
theorem pay12_eq (y : FVec Ideal S256x4x4 .f32) : k0_pay12 y = rowStep (round (round (round y))) := rfl

/-- The column sums handed to the third stretch are those of the second stretch's result. -/
theorem pay13_eq (y : FVec Ideal S256x4x4 .f32) :
    k0_pay13 y = shapeCast S256x1x4 (multiReduction .add [1] S256x4 (k0_pay12 y) 0x00000000#32 reduces_S256x4x4_S256x4_2 (.inl rfl) rfl) shapeCasts_S256x4_S256x1x4 := rfl

/-- The third stretch, given a block and its column sums: the column half-step that was pending, and three rounds. -/
theorem pay14_eq (z : FVec Ideal S256x4x4 .f32) :
    k0_pay14 z (shapeCast S256x1x4 (multiReduction .add [1] S256x4 z 0x00000000#32 reduces_S256x4x4_S256x4_2 (.inl rfl) rfl) shapeCasts_S256x4_S256x1x4) epsK
      = round (round (round (colStep z))) := rfl

/-- Together: the gate and ten rounds. -/
theorem chain_eq (v : FVec Ideal S256x4x4 .f32) :
    k0_pay14 (k0_pay12 (k0_pay11 v)) (k0_pay13 (k0_pay11 v)) epsK = round^[10] (gateK v) := by
  rw [pay13_eq, pay14_eq, pay12_eq, pay11_eq]
  rfl

/-! ## The projection -/

/-- Token r's row of the loaded block. -/
def rowOf (P0 : Vec Ideal S1x256x8192 .f32) (r : Fin 256) : Fin 8192 → EReal := fun k => P0 (ix3 (0 : Fin 1) r k)

/-- The weight rows, read from the transposed block. -/
def wOf (P1 : Vec Ideal S8192x24 .bf16) : Fin 24 → Fin 8192 → EReal := fun n k => P1 (ix2 k n)

section
variable (P0 : Vec Ideal S1x256x8192 .f32) (P1 : Vec Ideal S8192x24 .bf16) (P2 : Vec Ideal S3 .f32) (P3 : Vec Ideal S24 .f32)

/-- The block without its leading unit axis. -/
theorem pay4_apply (r : Fin 256) (k : Fin 8192) : k0_pay4 P0 (ix2 r k) = rowOf P0 r k := by
  refine shapeCast_apply _ shapeCasts_S1x256x8192_S256x8192 (ix2 r k) (ix3 (0 : Fin 1) r k) ?_
  rw [Shape.rowMajor_val_two, Shape.rowMajor_val_three]
  show (0 * 256 + r.val) * 8192 + k.val = r.val * 8192 + k.val
  omega

/-- The inverse root mean square of every token of the block, as the kernel computes it. -/
def rmsK : FVec Ideal S256x1 .f32 :=
  rsqrt (addf (divf (shapeCast S256x1 (multiReduction .add [1] S256 (mulf (k0_pay4 P0) (k0_pay4 P0)) 0x00000000#32 reduces_S256x8192_S256 (.inl rfl) rfl) shapeCasts_S256_S256x1) (broadcast S256x1 (Scalar.ofBits .f32 0x46000000#32))) (broadcast S256x1 (Scalar.ofBits .f32 0x358637BD#32)))

/-- The sum of squares over the lanes at token r. -/
theorem sqSum_apply (hφ : FKind.Formats .f32) (hacc : (0x00000000#32 : BitVec 32) = FKind.add.neutral .f32 hφ) (r : Fin 256) :
    multiReduction .add [1] S256 (mulf (k0_pay4 P0) (k0_pay4 P0)) 0x00000000#32 reduces_S256x8192_S256 hφ hacc (ix1 r)
      = ∑ k : Fin 8192, rowOf P0 r k * rowOf P0 r k := by
  refine (Ideal.multiReduction_add_single (mulf (k0_pay4 P0) (k0_pay4 P0)) _ reduces_S256x8192_S256 hφ hacc (ix1 r)).trans ?_
  refine Finset.sum_congr rfl fun k _ => ?_
  have e : reduces_S256x8192_S256.lift (ix1 r) k = ix2 r k := funext fun a => Fin.ext (by
    match a with
    | ⟨0, _⟩ => rfl
    | ⟨1, _⟩ => rfl)
  refine (congrArg (mulf (k0_pay4 P0) (k0_pay4 P0)) e).trans ?_
  exact congrArg₂ (· * ·) (pay4_apply P0 r k) (pay4_apply P0 r k)

/-- At token r it is the token's inverse root mean square. -/
theorem rmsK_apply (r : Fin 256) : rmsK P0 (ix2 r (0 : Fin 1)) = Cert.Token.invRms (rowOf P0 r) := by
  show Ideal.rsqrt (Ideal.div _ Cert.Token.len + Cert.Token.epsR) = Ideal.rsqrt (Ideal.div _ Cert.Token.len + Cert.Token.epsR)
  refine congrArg (fun s => Ideal.rsqrt (Ideal.div s Cert.Token.len + Cert.Token.epsR)) ?_
  refine (shapeCast_apply _ shapeCasts_S256_S256x1 (ix2 r (0 : Fin 1)) (ix1 r) ?_).trans (sqSum_apply P0 _ _ r)
  rw [Shape.rowMajor_val_one, Shape.rowMajor_val_two]
  show r.val = r.val * 1 + 0
  omega

/-- The matrix unit's left operand: the normalised rows. -/
def lhsK : FVec Ideal S256x8192 .bf16 :=
  truncf .bf16 (mulf (k0_pay4 P0) (broadcastTo S256x8192 (rmsK P0) broadcasts_S256x1_S256x8192)) bitsLt_bf16_f32

/-- The matrix unit's right operand: the transposed weights. -/
def rhsK : FVec Ideal S8192x24 .bf16 := shapeCast S8192x24 P1 shapeCasts_S8192x24_S8192x24

theorem lhsK_apply (r : Fin 256) (k : Fin 8192) : lhsK P0 (ix2 r k) = rowOf P0 r k * Cert.Token.invRms (rowOf P0 r) := by
  show k0_pay4 P0 (ix2 r k) * broadcastTo S256x8192 (rmsK P0) broadcasts_S256x1_S256x8192 (ix2 r k) = _
  refine congrArg₂ (· * ·) (pay4_apply P0 r k) ?_
  refine (broadcastTo_apply _ broadcasts_S256x1_S256x8192 (ix2 r k) (ix2 r (0 : Fin 1)) fun a => ?_).trans (rmsK_apply P0 r)
  match a with
  | ⟨0, _⟩ => rfl
  | ⟨1, _⟩ => rfl

theorem rhsK_apply (k : Fin 8192) (n : Fin 24) : rhsK P1 (ix2 k n) = wOf P1 n k :=
  shapeCast_apply _ shapeCasts_S8192x24_S8192x24 (ix2 k n) (ix2 k n) rfl

/-- The contraction of the matrix product: one axis of 8192 positions. -/
abbrev dotK : DotDims S256x8192 S8192x24 S256x24 := dot_S256x8192_S8192x24_S256x24_1_0_0_1_n_n

theorem dotK_rank : dotK.contr.rank = 1 := rfl
theorem dotK_size : dotK.contr.size ⟨0, by rw [dotK_rank]; exact Nat.one_pos⟩ = 8192 := rfl

/-- Its index set is the 8192 positions of a row. -/
def cEquiv : dotK.contr.Idx ≃ Fin 8192 := contrEquiv1 dotK 8192 dotK_rank dotK_size

theorem cEquiv_symm_val (c : Fin 8192) : ((cEquiv.symm c) ⟨0, by rw [dotK_rank]; exact Nat.one_pos⟩ : ℕ) = c.val :=
  contrEquiv1_symm_val dotK 8192 dotK_rank dotK_size c

/-- The left operand's index at output (r, n) and position c is (r, c). -/
theorem lhsIdx_eq (r : Fin 256) (n : Fin 24) (c : Fin 8192) : dotK.lhsIdx (ix2 r n) (cEquiv.symm c) = ix2 r c := by
  funext a
  apply Fin.ext
  match a with
  | ⟨0, _⟩ => rfl
  | ⟨1, _⟩ => exact (dotK.lhsIdx_val_of_single (cl := (1 : Fin 2)) rfl (ix2 r n) (cEquiv.symm c)).trans (cEquiv_symm_val c)

/-- The right operand's index at output (r, n) and position c is (c, n). -/
theorem rhsIdx_eq (r : Fin 256) (n : Fin 24) (c : Fin 8192) : dotK.rhsIdx (ix2 r n) (cEquiv.symm c) = ix2 c n := by
  funext a
  apply Fin.ext
  match a with
  | ⟨0, _⟩ => exact (dotK.rhsIdx_val_of_single (cr := (0 : Fin 2)) rfl (ix2 r n) (cEquiv.symm c)).trans (cEquiv_symm_val c)
  | ⟨1, _⟩ => rfl

theorem pay5_eq : k0_pay5 P0 P1 = matmul dotK none (lhsK P0) (rhsK P1) (constant S256x24 .f32 0x00000000#32) := rfl

/-- The matrix product at (r, n) is entry n of token r's projection. -/
theorem pay5_apply (r : Fin 256) (n : Fin 24) : k0_pay5 P0 P1 (ix2 r n) = Cert.Token.proj (rowOf P0 r) (wOf P1) n := by
  rw [pay5_eq]
  refine (Ideal.matmul_constant_zero_apply dotK none (lhsK P0) (rhsK P1) (ix2 r n)).trans ?_
  refine (Equiv.sum_comp cEquiv.symm _).symm.trans ?_
  refine Finset.sum_congr rfl fun c _ => ?_
  refine congrArg₂ (· * ·) ?_ ?_
  · exact (congrArg (lhsK P0) (lhsIdx_eq r n c)).trans (lhsK_apply P0 r c)
  · exact (congrArg (rhsK P1) (rhsIdx_eq r n c)).trans (rhsK_apply P1 c n)

/-! ## The three linear parts -/

/-- A four-column slice of the projection. -/
theorem slice4_apply (o : Nat) (hs : S256x24.Slices ![0, o] S256x4) (r : Fin 256) (h : Fin 4) (m : Fin 24) (hm : m.val = o + h.val) :
    extractStridedSlice S256x4 ![0, o] (k0_pay5 P0 P1) hs (ix2 r h) = Cert.Token.proj (rowOf P0 r) (wOf P1) m := by
  refine (extractStridedSlice_apply _ _ hs (ix2 r h) (ix2 r m) fun a => ?_).trans (pay5_apply P0 P1 r m)
  match a with
  | ⟨0, _⟩ => show r.val = 0 + r.val; omega
  | ⟨1, _⟩ => exact hm

/-- One entry of the scales, as the kernel extracts it. -/
theorem scale_apply (o : Nat) (ho : o < 3) (hs : S3.Slices ![o] S1) (hp : ∀ a, (![0] : Fin 1 → Nat) a < S1.size a) :
    extractAt ![0] (extractStridedSlice S1 ![o] P2 hs) hp = Cert.Token.vec P2 ⟨o, ho⟩ := by
  show P2 _ = P2 _
  refine congrArg P2 (funext fun a => Fin.ext ?_)
  match a with
  | ⟨0, _⟩ => rfl

/-- Four entries of the bias, laid along the rows of the block. -/
theorem bias4_apply (o : Nat) (hs : S24.Slices ![o] S4) (r : Fin 256) (h : Fin 4) (m : Fin 24) (hm : m.val = o + h.val) :
    broadcastTo S256x4 (shapeCast S1x4 (extractStridedSlice S4 ![o] P3 hs) shapeCasts_S4_S1x4) broadcasts_S1x4_S256x4 (ix2 r h)
      = Cert.Token.vec P3 m := by
  refine (broadcastTo_apply _ broadcasts_S1x4_S256x4 (ix2 r h) (ix2 (0 : Fin 1) h) fun a => ?_).trans ?_
  · match a with
    | ⟨0, _⟩ => rfl
    | ⟨1, _⟩ => rfl
  refine (shapeCast_apply _ shapeCasts_S4_S1x4 (ix2 (0 : Fin 1) h) (ix1 h) ?_).trans ?_
  · rw [Shape.rowMajor_val_one, Shape.rowMajor_val_two]
    show h.val = 0 * 4 + h.val
    omega
  refine extractStridedSlice_apply _ P3 hs (ix1 h) (ix1 m) fun a => ?_
  match a with
  | ⟨0, _⟩ => exact hm

/-- The linear part of the first gates. -/
theorem pre_lin (r : Fin 256) (h : Fin 4) :
    k0_pay6 P0 P1 P2 P3 (ix2 r h) = Cert.Token.proj (rowOf P0 r) (wOf P1) ⟨h.val, by omega⟩ * Cert.Token.vec P2 0 + Cert.Token.vec P3 ⟨h.val, by omega⟩ := by
  have e1 := slice4_apply P0 P1 0 slices_S256x24_o0_0_S256x4 r h ⟨h.val, by omega⟩ (Nat.zero_add _).symm
  have e2 := scale_apply P2 0 (by omega) slices_S3_o0_S1 inpos_S1_p0
  have e3 := bias4_apply P3 0 slices_S24_o0_S4 r h ⟨h.val, by omega⟩ (Nat.zero_add _).symm
  exact congrArg₂ (· + ·) (congrArg₂ (· * ·) e1 e2) e3

/-- The linear part of the post gates. -/
theorem post_lin (r : Fin 256) (h : Fin 4) :
    k0_pay7 P0 P1 P2 P3 (ix2 r h) = Cert.Token.proj (rowOf P0 r) (wOf P1) ⟨4 + h.val, by omega⟩ * Cert.Token.vec P2 1 + Cert.Token.vec P3 ⟨4 + h.val, by omega⟩ := by
  have e1 := slice4_apply P0 P1 4 slices_S256x24_o0_4_S256x4 r h ⟨4 + h.val, by omega⟩ rfl
  have e2 := scale_apply P2 1 (by omega) slices_S3_o1_S1 inpos_S1_p0
  have e3 := bias4_apply P3 4 slices_S24_o4_S4 r h ⟨4 + h.val, by omega⟩ rfl
  exact congrArg₂ (· + ·) (congrArg₂ (· * ·) e1 e2) e3

/-- The 4 × 4 part of the projection: column i · 4 + j of the sixteen-column slice. -/
theorem slice16_apply (r : Fin 256) (i j : Fin 4) (m : Fin 24) (hm : m.val = 8 + (i.val * 4 + j.val)) :
    shapeCast S256x4x4 (extractStridedSlice S256x16 ![0, 8] (k0_pay5 P0 P1) slices_S256x24_o0_8_S256x16) shapeCasts_S256x16_S256x4x4 (ix3 r i j)
      = Cert.Token.proj (rowOf P0 r) (wOf P1) m := by
  have hc : i.val * 4 + j.val < 16 := by omega
  refine (shapeCast_apply _ shapeCasts_S256x16_S256x4x4 (ix3 r i j) (ix2 r (⟨i.val * 4 + j.val, hc⟩ : Fin 16)) ?_).trans ?_
  · rw [Shape.rowMajor_val_two, Shape.rowMajor_val_three]
    show r.val * 16 + (i.val * 4 + j.val) = (r.val * 4 + i.val) * 4 + j.val
    omega
  refine (extractStridedSlice_apply _ _ slices_S256x24_o0_8_S256x16 (ix2 r (⟨i.val * 4 + j.val, hc⟩ : Fin 16)) (ix2 r m) fun a => ?_).trans
    (pay5_apply P0 P1 r m)
  match a with
  | ⟨0, _⟩ => show r.val = 0 + r.val; omega
  | ⟨1, _⟩ => exact hm

/-- Sixteen entries of the bias, laid 4 × 4 row by row and repeated over the tokens of the block. -/
theorem bias16_apply (r : Fin 256) (i j : Fin 4) (m : Fin 24) (hm : m.val = 8 + (i.val * 4 + j.val)) :
    broadcastTo S256x4x4 (shapeCast S1x4x4 (shapeCast S4x4 (extractStridedSlice S16 ![8] P3 slices_S24_o8_S16) shapeCasts_S16_S4x4) shapeCasts_S4x4_S1x4x4) broadcasts_S1x4x4_S256x4x4 (ix3 r i j)
      = Cert.Token.vec P3 m := by
  have hc : i.val * 4 + j.val < 16 := by omega
  refine (broadcastTo_apply _ broadcasts_S1x4x4_S256x4x4 (ix3 r i j) (ix3 (0 : Fin 1) i j) fun a => ?_).trans ?_
  · match a with
    | ⟨0, _⟩ => rfl
    | ⟨1, _⟩ => rfl
    | ⟨2, _⟩ => rfl
  refine (shapeCast_apply _ shapeCasts_S4x4_S1x4x4 (ix3 (0 : Fin 1) i j) (ix2 i j) ?_).trans ?_
  · rw [Shape.rowMajor_val_two, Shape.rowMajor_val_three]
    show i.val * 4 + j.val = (0 * 4 + i.val) * 4 + j.val
    omega
  refine (shapeCast_apply _ shapeCasts_S16_S4x4 (ix2 i j) (ix1 (⟨i.val * 4 + j.val, hc⟩ : Fin 16)) ?_).trans ?_
  · rw [Shape.rowMajor_val_one, Shape.rowMajor_val_two]
    rfl
  refine extractStridedSlice_apply _ P3 slices_S24_o8_S16 (ix1 (⟨i.val * 4 + j.val, hc⟩ : Fin 16)) (ix1 m) fun a => ?_
  match a with
  | ⟨0, _⟩ => exact hm

/-- The linear part under the matrix's gate. -/
theorem comb_lin (r : Fin 256) (i j : Fin 4) :
    k0_pay8 P0 P1 P2 P3 (ix3 r i j)
      = Cert.Token.proj (rowOf P0 r) (wOf P1) ⟨8 + (i.val * 4 + j.val), by omega⟩ * Cert.Token.vec P2 2
        + Cert.Token.vec P3 ⟨8 + (i.val * 4 + j.val), by omega⟩ := by
  have e1 := slice16_apply P0 P1 r i j ⟨8 + (i.val * 4 + j.val), by omega⟩ rfl
  have e2 := scale_apply P2 2 (by omega) slices_S3_o2_S1 inpos_S1_p0
  have e3 := bias16_apply P3 r i j ⟨8 + (i.val * 4 + j.val), by omega⟩ rfl
  exact congrArg₂ (· + ·) (congrArg₂ (· * ·) e1 e2) e3

/-- Token r's matrix after the gate is the specification's starting matrix. -/
theorem tok_gate (r : Fin 256) :
    tok (gateK (k0_pay8 P0 P1 P2 P3)) r = Cert.Token.comb0 (rowOf P0 r) (wOf P1) (Cert.Token.vec P2) (Cert.Token.vec P3) :=
  funext fun i => funext fun j => congrArg Cert.Token.gate (comb_lin P0 P1 P2 P3 r i j)

/-- The stored block is the 256 matrices under a leading unit axis. -/
theorem pay2_apply (z : FVec Ideal S256x4x4 .f32) (r : Fin 256) (i j : Fin 4) : k0_pay2 z (ix4 (0 : Fin 1) r i j) = z (ix3 r i j) := by
  refine shapeCast_apply z shapeCasts_S256x4x4_S1x256x4x4 (ix4 (0 : Fin 1) r i j) (ix3 r i j) ?_
  rw [Shape.rowMajor_val_three, Shape.rowMajor_val_four]
  show (r.val * 4 + i.val) * 4 + j.val = ((0 * 256 + r.val) * 4 + i.val) * 4 + j.val
  omega

/-- The stored 4 × 4 block at token r: ten rounds on the token's starting matrix. -/
theorem comb_block (r : Fin 256) (i j : Fin 4) :
    k0_pay2 (k0_pay14 (k0_pay12 (k0_pay11 (k0_pay8 P0 P1 P2 P3))) (k0_pay13 (k0_pay11 (k0_pay8 P0 P1 P2 P3))) (Scalar.ofBits .f32 0x3727C5AC#32)) (ix4 (0 : Fin 1) r i j)
      = Cert.Token.sinkhorn (Cert.Token.comb0 (rowOf P0 r) (wOf P1) (Cert.Token.vec P2) (Cert.Token.vec P3)) i j := by
  refine (pay2_apply _ r i j).trans ?_
  refine (congrFun (chain_eq (k0_pay8 P0 P1 P2 P3)) (ix3 r i j)).trans ?_
  show tok (round^[10] (gateK (k0_pay8 P0 P1 P2 P3))) r i j = _
  rw [tok_iter, tok_gate]
  rfl

end

end Cert.KerBody

end
-- ==== Proof.KerOut.lean ====
/-
  What the kernel's body leaves in each result block, entry by entry, as one token's computation
  (the linear parts, the projection and the twenty normalisation steps are read in the sibling module on the body):
  the post-gate block is the gate of the post linear part; the matrix block is the normalised matrix; the collapsed block
  is, at column d of row r, gate₀ · x(d) + gate₁ · x(2048 + d) + gate₂ · x(4096 + d) + gate₃ · x(6144 + d), the kernel's
  four column slices of the flat row being the four streams.
-/
import proofs.«124175_j13761075216602_1_alg».proof.Proof.Gen.KernelIdeal.Skeleton
import proofs.«124175_j13761075216602_1_alg».proof.Proof.Token
import proofs.«124175_j13761075216602_1_alg».proof.Proof.KerBody
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KerOut

open Cert.KernelIdeal Cert.KernelIdeal.Gen Cert.KerBody

variable (P0 : Vec Ideal S1x256x8192 .f32) (P1 : Vec Ideal S8192x24 .bf16) (P2 : Vec Ideal S3 .f32) (P3 : Vec Ideal S24 .f32)

/-- The token block laid out as 256 rows. -/
theorem flat_apply (r : Fin 256) (k : Fin 8192) : k0_pay4 P0 (ix2 r k) = P0 (ix3 (0 : Fin 1) r k) := by
  unfold k0_pay4
  refine shapeCast_apply _ _ _ _ ?_
  rw [Shape.rowMajor_val_three, Shape.rowMajor_val_two]
  show (0 * 256 + r.val) * 8192 + k.val = r.val * 8192 + k.val
  omega

/-- The gate of stream h of row r. -/
theorem pre_apply (r : Fin 256) (h : Fin 4) :
    k0_pay9 (k0_pay6 P0 P1 P2 P3) (ix2 r h) = Cert.Token.pre (rowOf P0 r) (wOf P1) (Cert.Token.vec P2) (Cert.Token.vec P3) h := by
  show Cert.Token.gate (k0_pay6 P0 P1 P2 P3 (ix2 r h)) = _
  rw [pre_lin]; rfl

/-- The post-gate block. -/
theorem post_blk (u : Fin 1) (r : Fin 256) (h : Fin 4) :
    k0_pay1 (k0_pay10 (k0_pay7 P0 P1 P2 P3)) (ix3 u r h) = Cert.Token.post (rowOf P0 r) (wOf P1) (Cert.Token.vec P2) (Cert.Token.vec P3) h := by
  have hu : u.val < 1 := u.isLt
  unfold k0_pay1
  refine (shapeCast_apply _ _ _ (ix2 r h) ?_).trans ?_
  · rw [Shape.rowMajor_val_two, Shape.rowMajor_val_three]
    show r.val * 4 + h.val = (u.val * 256 + r.val) * 4 + h.val
    omega
  · show Cert.Token.gate (k0_pay7 P0 P1 P2 P3 (ix2 r h)) = _
    rw [post_lin]; rfl

/-- Column hh of a [256, 4] array, spread over 2048 columns. -/
theorem slice_col (v : FVec Ideal S256x4 .f32) (off : Fin 2 → Nat) (hs : S256x4.Slices off S256x1) (hb : S256x1.Broadcasts S256x2048)
    (hh : Fin 4) (h0 : off 0 = 0) (h1 : off 1 = hh.val) (r : Fin 256) (d : Fin 2048) :
    broadcastTo S256x2048 (extractStridedSlice S256x1 off v hs) hb (ix2 r d) = v (ix2 r hh) := by
  refine (broadcastTo_apply _ _ _ (ix2 r (0 : Fin 1)) ?_).trans ?_
  · intro a
    match a with
    | ⟨0, _⟩ => show r.val = if (256 : Nat) = 1 then 0 else r.val; rw [if_neg (by decide)]
    | ⟨1, _⟩ => show 0 = if (1 : Nat) = 1 then 0 else d.val; rw [if_pos rfl]
  · refine extractStridedSlice_apply _ _ _ _ (ix2 r hh) ?_
    intro a
    match a with
    | ⟨0, _⟩ => show r.val = off 0 + r.val; omega
    | ⟨1, _⟩ => show hh.val = off 1 + 0; omega

/-- Columns o … o + 2047 of a [256, 8192] array. -/
theorem slice_row (v : FVec Ideal S256x8192 .f32) (off : Fin 2 → Nat) (hs : S256x8192.Slices off S256x2048)
    (h0 : off 0 = 0) (r : Fin 256) (d : Fin 2048) (k : Fin 8192) (hk : k.val = off 1 + d.val) :
    extractStridedSlice S256x2048 off v hs (ix2 r d) = v (ix2 r k) := by
  refine extractStridedSlice_apply _ _ _ _ (ix2 r k) ?_
  intro a
  match a with
  | ⟨0, _⟩ => show r.val = off 0 + r.val; omega
  | ⟨1, _⟩ => show k.val = off 1 + d.val; exact hk

/-- The collapsed block: the four streams of a row, each times its gate, added in order. -/
theorem coll_blk (u : Fin 1) (r : Fin 256) (d : Fin 2048) :
    k0_pay3 (k0_pay4 P0) (k0_pay9 (k0_pay6 P0 P1 P2 P3)) (k0_pay15 (k0_pay4 P0) (k0_pay9 (k0_pay6 P0 P1 P2 P3))) (k0_pay16 (k0_pay4 P0) (k0_pay9 (k0_pay6 P0 P1 P2 P3))) (ix3 u r d)
      = Cert.Token.collapse (rowOf P0 r) (wOf P1) (Cert.Token.vec P2) (Cert.Token.vec P3) d := by
  have hu : u.val < 1 := u.isLt
  have hd : d.val < 2048 := d.isLt
  unfold k0_pay3 k0_pay15 k0_pay16
  dsimp only
  refine (shapeCast_apply _ _ _ (ix2 r d) ?_).trans ?_
  · rw [Shape.rowMajor_val_two, Shape.rowMajor_val_three]
    show r.val * 2048 + d.val = (u.val * 256 + r.val) * 2048 + d.val
    omega
  · simp only [addf_apply, mulf_apply]
    rw [slice_col (k0_pay9 (k0_pay6 P0 P1 P2 P3)) ![0, 0] slices_S256x4_o0_0_S256x1 broadcasts_S256x1_S256x2048 (0 : Fin 4) rfl rfl r d,
      slice_col (k0_pay9 (k0_pay6 P0 P1 P2 P3)) ![0, 1] slices_S256x4_o0_1_S256x1 broadcasts_S256x1_S256x2048 (1 : Fin 4) rfl rfl r d,
      slice_col (k0_pay9 (k0_pay6 P0 P1 P2 P3)) ![0, 2] slices_S256x4_o0_2_S256x1 broadcasts_S256x1_S256x2048 (2 : Fin 4) rfl rfl r d,
      slice_col (k0_pay9 (k0_pay6 P0 P1 P2 P3)) ![0, 3] slices_S256x4_o0_3_S256x1 broadcasts_S256x1_S256x2048 (3 : Fin 4) rfl rfl r d,
      slice_row (k0_pay4 P0) ![0, 0] slices_S256x8192_o0_0_S256x2048 rfl r d (⟨(0 : Fin 4).val * 2048 + d.val, by show 0 * 2048 + d.val < 8192; omega⟩ : Fin 8192) (by show 0 * 2048 + d.val = 0 + d.val; omega),
      slice_row (k0_pay4 P0) ![0, 2048] slices_S256x8192_o0_2048_S256x2048 rfl r d (⟨(1 : Fin 4).val * 2048 + d.val, by show 1 * 2048 + d.val < 8192; omega⟩ : Fin 8192) (by show 1 * 2048 + d.val = 2048 + d.val; omega),
      slice_row (k0_pay4 P0) ![0, 4096] slices_S256x8192_o0_4096_S256x2048 rfl r d (⟨(2 : Fin 4).val * 2048 + d.val, by show 2 * 2048 + d.val < 8192; omega⟩ : Fin 8192) (by show 2 * 2048 + d.val = 4096 + d.val; omega),
      slice_row (k0_pay4 P0) ![0, 6144] slices_S256x8192_o0_6144_S256x2048 rfl r d (⟨(3 : Fin 4).val * 2048 + d.val, by show 3 * 2048 + d.val < 8192; omega⟩ : Fin 8192) (by show 3 * 2048 + d.val = 6144 + d.val; omega)]
    rw [pre_apply, pre_apply, pre_apply, pre_apply, flat_apply, flat_apply, flat_apply, flat_apply]
    unfold Cert.Token.collapse
    rw [Fin.sum_univ_four]
    rfl

/-- The matrix block. -/
theorem comb_blk (u : Fin 1) (r : Fin 256) (i j : Fin 4) :
    k0_pay2 (k0_pay14 (k0_pay12 (k0_pay11 (k0_pay8 P0 P1 P2 P3))) (k0_pay13 (k0_pay11 (k0_pay8 P0 P1 P2 P3))) (Scalar.ofBits .f32 0x3727C5AC#32)) (ix4 u r i j)
      = Cert.Token.sinkhorn (Cert.Token.comb0 (rowOf P0 r) (wOf P1) (Cert.Token.vec P2) (Cert.Token.vec P3)) i j := by
  obtain rfl : u = 0 := Subsingleton.elim _ _
  exact comb_block P0 P1 P2 P3 r i j

end Cert.KerOut

end
-- ==== Proof.KerValue.lean ====
/-
  The kernel's three result arrays as functions of the argument arrays.

  Point (q₀, q₁) writes back, into rows 256 q₁ … 256 q₁ + 255 of batch q₀ of each result array, what the body left in the
  result's block; the body's blocks are one token's computation of the fetched rows, and the fetched rows are the
  argument's rows of the same tokens; so each write-back is that block of the specification's array, and since the
  blocks tile the arrays, the arrays end at the specification.
-/
import proofs.«124175_j13761075216602_1_alg».proof.Proof.Blocks
import proofs.«124175_j13761075216602_1_alg».proof.Proof.Gen.KernelIdeal.Frame
import proofs.«124175_j13761075216602_1_alg».proof.Proof.Token
import proofs.«124175_j13761075216602_1_alg».proof.Proof.KerOut
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KerBody Cert.KerOut

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What each point writes back is its block of the result array -/

theorem flushed4_eq (c : Dev nD) (t : Fin cfg0.N) :
    (dats m 0 c).flushed 4 t = ((cfg0.win 4).blk t).view.read (Elt Ideal)
      (Cert.Token.outPost (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  rw [View.canon_unit_zero hz3]
  simp only [View.ld_unit_zero (S := S1x256x8192) hz3, View.ld_unit_zero (S := S8192x24) hz2, View.ld_unit_zero (S := S3) hz1, View.ld_unit_zero (S := S24) hz1]
  obtain ⟨e0, e1, e2, e3, e4, e5, e6, e7, e8, e9, f0, f1, f2, f3, g0, g1, g2⟩ := idx_facts t
  refine funext fun (j : S1x256x4.Idx) => ?_
  obtain ⟨u, r, h, rfl⟩ : ∃ (u : Fin 1) (r : Fin 256) (h : Fin 4), j = ix3 u r h := ⟨j 0, j 1, j 2, eq_ix3 j⟩
  have hu : u.val < 1 := u.isLt
  have hr : r.val < 256 := r.isLt
  show k0_pay1 (k0_pay10 (k0_pay7 (iblk m c 0 t) (iblk m c 1 t) (iblk m c 3 t) (iblk m c 2 t))) (ix3 u r h) = Cert.Token.outPost _ _ _ _ (((cfg0.win 4).blk t).view.emb (ix3 u r h))
  have hemb : ((cfg0.win 4).blk t).view.emb (ix3 u r h) = ix3 (⟨win0_4.index t (0 : Fin 3), by omega⟩ : Fin 2) (⟨win0_4.index t (1 : Fin 3) * 256 + r.val, by omega⟩ : Fin 4096) h := by
    funext a; apply Fin.ext
    match a with
    | ⟨0, _⟩ => show win0_4.index t (0 : Fin 3) * 1 + 1 * u.val = win0_4.index t (0 : Fin 3); omega
    | ⟨1, _⟩ => show win0_4.index t (1 : Fin 3) * 256 + 1 * r.val = win0_4.index t (1 : Fin 3) * 256 + r.val; omega
    | ⟨2, _⟩ => show win0_4.index t (2 : Fin 3) * 4 + 1 * h.val = h.val; omega
  rw [hemb, Cert.Token.outPost_ix]
  refine (post_blk (iblk m c 0 t) (iblk m c 1 t) (iblk m c 3 t) (iblk m c 2 t) u r h).trans ?_
  have h0 : rowOf (iblk m c 0 t) r = Cert.Token.tokRow (m ((c : Thread nD τ).loc main_arg0)) (⟨win0_4.index t (0 : Fin 3), by omega⟩ : Fin 2) (⟨win0_4.index t (1 : Fin 3) * 256 + r.val, by omega⟩ : Fin 4096) :=
    funext fun k => iblk0_apply m c t r k _ _ rfl rfl
  have h1 : wOf (iblk m c 1 t) = Cert.Token.wMat (m ((c : Thread nD τ).loc main_arg1)) := funext fun n => funext fun k => iblk1_apply m c t k n
  have h2 : Cert.Token.vec (iblk m c 3 t) = Cert.Token.vec (m ((c : Thread nD τ).loc main_arg3)) := funext fun k => iblk3_apply m c t k
  have h3 : Cert.Token.vec (iblk m c 2 t) = Cert.Token.vec (m ((c : Thread nD τ).loc main_arg2)) := funext fun k => iblk2_apply m c t k
  rw [h0, h1, h2, h3]

theorem flushed5_eq (c : Dev nD) (t : Fin cfg0.N) :
    (dats m 0 c).flushed 5 t = ((cfg0.win 5).blk t).view.read (Elt Ideal)
      (Cert.Token.outComb (m ((c : Thread nD τ).loc main_arg0)) (m ((c : Thread nD τ).loc main_arg1)) (m ((c : Thread nD τ).loc main_arg2)) (m ((c : Thread nD τ).loc main_arg3))) := by
  show (cfg0.win 5).cut (grid0.coords t) ((dats m 0 c).after 5 t) = _
  rw [after0_5]
  unfold out0_5
  rw [View.canon_unit_zero hz4]
  simp only [View.ld_unit_zero (S := S1x256x8192) hz3, View.ld_unit_zero (S := S8192x24) hz2, View.ld_unit_zero (S := S3) hz1, View.ld_unit_zero (S := S24) hz1]
  obtain ⟨e0, e1, e2, e3, e4, e5, e6, e7, e8, e9, f0, f1, f2, f3, g0, g1, g2⟩ := idx_facts t
  refine funext fun (j : S1x256x4x4.Idx) => ?_
  obtain ⟨u, r, i', j', rfl⟩ : ∃ (u : Fin 1) (r : Fin 256) (i' : Fin 4) (j' : Fin 4), j = ix4 u r i' j' := ⟨j 0, j 1, j 2, j 3, eq_ix4 j⟩
  have hu : u.val < 1 := u.isLt
  have hr : r.val < 256 := r.isLt
  show k0_pay2 (k0_pay14 (k0_pay12 (k0_pay11 (k0_pay8 (iblk m c 0 t) (iblk m c 1 t) (iblk m c 3 t) (iblk m c 2 t)))) (k0_pay13 (k0_pay11 (k0_pay8 (iblk m c 0 t) (iblk m c 1 t) (iblk m c 3 t) (iblk m c 2 t)))) (Scalar.ofBits .f32 0x3727C5AC#32)) (ix4 u r i' j') = Cert.Token.outComb _ _ _ _ (((cfg0.win 5).blk t).view.emb (ix4 u r i' j'))
  have hemb : ((cfg0.win 5).blk t).view.emb (ix4 u r i' j') = ix4 (⟨win0_4.index t (0 : Fin 3), by omega⟩ : Fin 2) (⟨win0_4.index t (1 : Fin 3) * 256 + r.val, by omega⟩ : Fin 4096) i' j' := by
    funext a; apply Fin.ext
    match a with
    | ⟨0, _⟩ => show win0_5.index t (0 : Fin 4) * 1 + 1 * u.val = win0_4.index t (0 : Fin 3); omega
    | ⟨1, _⟩ => show win0_5.index t (1 : Fin 4) * 256 + 1 * r.val = win0_4.index t (1 : Fin 3) * 256 + r.val; omega
    | ⟨2, _⟩ => show win0_5.index t (2 : Fin 4) * 4 + 1 * i'.val = i'.val; omega
    | ⟨3, _⟩ => show win0_5.index t (3 : Fin 4) * 4 + 1 * j'.val = j'.val; omega
  rw [hemb, Cert.Token.outComb_ix]
  refine (comb_blk (iblk m c 0 t) (iblk m c 1 t) (iblk m c 3 t) (iblk m c 2 t) u r i' j').trans ?_
  have h0 : rowOf (iblk m c 0 t) r = Cert.Token.tokRow (m ((c : Thread nD τ).loc main_arg0)) (⟨win0_4.index t (0 : Fin 3), by omega⟩ : Fin 2) (⟨win0_4.index t (1 : Fin 3) * 256 + r.val, by omega⟩ : Fin 4096) :=
    funext fun k => iblk0_apply m c t r k _ _ rfl rfl
  have h1 : wOf (iblk m c 1 t) = Cert.Token.wMat (m ((c : Thread nD τ).loc main_arg1)) := funext fun n => funext fun k => iblk1_apply m c t k n
  have h2 : Cert.Token.vec (iblk m c 3 t) = Cert.Token.vec (m ((c : Thread nD τ).loc main_arg3)) := funext fun k => iblk3_apply m c t k
  have h3 : Cert.Token.vec (iblk m c 2 t) = Cert.Token.vec (m ((c : Thread nD τ).loc main_arg2)) := funext fun k => iblk2_apply m c t k
  rw [h0, h1, h2, h3]

theorem flushed6_eq (c : Dev nD) (t : Fin cfg0.N) :
    (dats m 0 c).flushed 6 t = ((cfg0.win 6).blk t).view.read (Elt Ideal)
      (Cert.Token.outColl (m ((c : Thread nD τ).loc main_arg0)) (m ((c : Thread nD τ).loc main_arg1)) (m ((c : Thread nD τ).loc main_arg2)) (m ((c : Thread nD τ).loc main_arg3))) := by
  show (cfg0.win 6).cut (grid0.coords t) ((dats m 0 c).after 6 t) = _
  rw [after0_6]
  unfold out0_6
  rw [View.canon_unit_zero hz3]
  simp only [View.ld_unit_zero (S := S1x256x8192) hz3, View.ld_unit_zero (S := S8192x24) hz2, View.ld_unit_zero (S := S3) hz1, View.ld_unit_zero (S := S24) hz1]
  obtain ⟨e0, e1, e2, e3, e4, e5, e6, e7, e8, e9, f0, f1, f2, f3, g0, g1, g2⟩ := idx_facts t
  refine funext fun (j : S1x256x2048.Idx) => ?_
  obtain ⟨u, r, d, rfl⟩ : ∃ (u : Fin 1) (r : Fin 256) (d : Fin 2048), j = ix3 u r d := ⟨j 0, j 1, j 2, eq_ix3 j⟩
  have hu : u.val < 1 := u.isLt
  have hr : r.val < 256 := r.isLt
  show k0_pay3 (k0_pay4 (iblk m c 0 t)) (k0_pay9 (k0_pay6 (iblk m c 0 t) (iblk m c 1 t) (iblk m c 3 t) (iblk m c 2 t))) (k0_pay15 (k0_pay4 (iblk m c 0 t)) (k0_pay9 (k0_pay6 (iblk m c 0 t) (iblk m c 1 t) (iblk m c 3 t) (iblk m c 2 t)))) (k0_pay16 (k0_pay4 (iblk m c 0 t)) (k0_pay9 (k0_pay6 (iblk m c 0 t) (iblk m c 1 t) (iblk m c 3 t) (iblk m c 2 t)))) (ix3 u r d) = Cert.Token.outColl _ _ _ _ (((cfg0.win 6).blk t).view.emb (ix3 u r d))
  have hemb : ((cfg0.win 6).blk t).view.emb (ix3 u r d) = ix3 (⟨win0_4.index t (0 : Fin 3), by omega⟩ : Fin 2) (⟨win0_4.index t (1 : Fin 3) * 256 + r.val, by omega⟩ : Fin 4096) d := by
    funext a; apply Fin.ext
    match a with
    | ⟨0, _⟩ => show win0_6.index t (0 : Fin 3) * 1 + 1 * u.val = win0_4.index t (0 : Fin 3); omega
    | ⟨1, _⟩ => show win0_6.index t (1 : Fin 3) * 256 + 1 * r.val = win0_4.index t (1 : Fin 3) * 256 + r.val; omega
    | ⟨2, _⟩ => show win0_6.index t (2 : Fin 3) * 2048 + 1 * d.val = d.val; omega
  rw [hemb, Cert.Token.outColl_ix]
  refine (coll_blk (iblk m c 0 t) (iblk m c 1 t) (iblk m c 3 t) (iblk m c 2 t) u r d).trans ?_
  have h0 : rowOf (iblk m c 0 t) r = Cert.Token.tokRow (m ((c : Thread nD τ).loc main_arg0)) (⟨win0_4.index t (0 : Fin 3), by omega⟩ : Fin 2) (⟨win0_4.index t (1 : Fin 3) * 256 + r.val, by omega⟩ : Fin 4096) :=
    funext fun k => iblk0_apply m c t r k _ _ rfl rfl
  have h1 : wOf (iblk m c 1 t) = Cert.Token.wMat (m ((c : Thread nD τ).loc main_arg1)) := funext fun n => funext fun k => iblk1_apply m c t k n
  have h2 : Cert.Token.vec (iblk m c 3 t) = Cert.Token.vec (m ((c : Thread nD τ).loc main_arg3)) := funext fun k => iblk3_apply m c t k
  have h3 : Cert.Token.vec (iblk m c 2 t) = Cert.Token.vec (m ((c : Thread nD τ).loc main_arg2)) := funext fun k => iblk2_apply m c t k
  rw [h0, h1, h2, h3]

/-! ## The result arrays, and the run -/

theorem final4 (c : Dev nD) : (dats m 0 c).arrAt 4 cfg0.N = Cert.Token.outPost (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) cover4

theorem final5 (c : Dev nD) : (dats m 0 c).arrAt 5 cfg0.N = Cert.Token.outComb (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) cover5

theorem final6 (c : Dev nD) : (dats m 0 c).arrAt 6 cfg0.N = Cert.Token.outColl (m ((c : Thread nD τ).loc main_arg0)) (m ((c : Thread nD τ).loc main_arg1)) (m ((c : Thread nD τ).loc main_arg2)) (m ((c : Thread nD τ).loc main_arg3)) :=
  (dats m 0 c).arrAt_eq_of_cover 6 _ (fun t _ => flushed6_eq m c t) cover6

/-- The kernel's run: every weakly fair execution ends with the three result arrays at the specification of the
    argument arrays, and the arguments as launched. -/
theorem run : θ_run defs (onTc (τ := τ) (main (F := Ideal))) ⟨m, fun _ => 0, ρ⟩ fun r => ∀ c : Dev nD,
      r.2.mem ((c : Thread nD τ).loc main_v3_0) = Cert.Token.outPost (m ((c : Thread nD τ).loc main_arg0)) (m ((c : Thread nD τ).loc main_arg1)) (m ((c : Thread nD τ).loc main_arg2)) (m ((c : Thread nD τ).loc main_arg3))
      ∧ r.2.mem ((c : Thread nD τ).loc main_v3_1) = Cert.Token.outComb (m ((c : Thread nD τ).loc main_arg0)) (m ((c : Thread nD τ).loc main_arg1)) (m ((c : Thread nD τ).loc main_arg2)) (m ((c : Thread nD τ).loc main_arg3))
      ∧ r.2.mem ((c : Thread nD τ).loc main_v3_2) = Cert.Token.outColl (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (run_arrays m ρ)

end Cert.KernelIdeal.Hand

end
-- ==== Proof.RefSide.lean ====
/-
  The reference program's three results, read index by index, are the shared one-token formulas.
-/
import proofs.«124175_j13761075216602_1_alg».proof.Proof.Token
import proofs.«124175_j13761075216602_1_alg».proof.Proof.Gen.ReferenceIdeal.Run
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.RefSide

open Cert.ReferenceIdeal Cert.ReferenceIdeal.Gen Cert.ReferenceIdeal.Value Idealize.ShloMosaic Idealize.ShloMosaic.StableHlo Idealize.ShloMosaic.ValueIdx

/-! ## The matrix normalisations -/

theorem red_d3 : S2x4096x4x4.Reduces [3] S2x4096x4 := by decide
theorem red_d2 : S2x4096x4x4.Reduces [2] S2x4096x4 := by decide

/-- Every entry of each 4 × 4 matrix divided by its row's sum plus ε_h, on the whole [2, 4096, 4, 4] array. -/
def rowStep (x : FVec Ideal S2x4096x4x4 .f32) : FVec Ideal S2x4096x4x4 .f32 :=
  Host.divf (F := Ideal) x (broadcastInDim S2x4096x4x4 ![0, 1, 2, 3] bcast_S2x4096x4x1_S2x4096x4x4_0_1_2_3 (addf (F := Ideal) (broadcastInDim S2x4096x4x1 ![0, 1, 2] bcast_S2x4096x4_S2x4096x4x1_0_1_2 (Host.reduceAdd (F := Ideal) x (constant (F := Ideal) S_ .f32 0x00000000#32) reducesTo_S2x4096x4x4_S2x4096x4_d3 h_S_)) (broadcastInDim S2x4096x4x1 ![] bcast_S_S2x4096x4x1 (constant (F := Ideal) S_ .f32 0x3727C5AC#32))))

/-- Every entry divided by its column's sum plus ε_h, on the whole array. -/
def colStep (x : FVec Ideal S2x4096x4x4 .f32) : FVec Ideal S2x4096x4x4 .f32 :=
  Host.divf (F := Ideal) x (broadcastInDim S2x4096x4x4 ![0, 1, 2, 3] bcast_S2x4096x1x4_S2x4096x4x4_0_1_2_3 (addf (F := Ideal) (broadcastInDim S2x4096x1x4 ![0, 1, 3] bcast_S2x4096x4_S2x4096x1x4_0_1_3 (Host.reduceAdd (F := Ideal) x (constant (F := Ideal) S_ .f32 0x00000000#32) reducesTo_S2x4096x4x4_S2x4096x4_d2 h_S_)) (broadcastInDim S2x4096x1x4 ![] bcast_S_S2x4096x1x4 (constant (F := Ideal) S_ .f32 0x3727C5AC#32))))

/-- Token (b, s)'s matrix of the array. -/
def mat (x : FVec Ideal S2x4096x4x4 .f32) (b : Fin 2) (s : Fin 4096) : Fin 4 → Fin 4 → EReal :=
  fun i j => x (ix4 b s i j)

theorem rowStep_apply (x : FVec Ideal S2x4096x4x4 .f32) (b : Fin 2) (s : Fin 4096) (i j : Fin 4) :
    rowStep x (ix4 b s i j) = Token.rowN (mat x b s) i j := by
  unfold rowStep Token.rowN
  refine (hostDivf_apply _ _ _).trans ?_
  refine congrArg (Ideal.div (x (ix4 b s i j))) ?_
  refine (broadcastInDim_apply _ _ _ (ix4 b s i j) (ix4 b s i (0 : Fin 1)) ?_).trans ?_
  · intro a
    match a with
    | ⟨0, _⟩ => rfl
    | ⟨1, _⟩ => rfl
    | ⟨2, _⟩ => rfl
    | ⟨3, _⟩ => rfl
  refine (addf_apply _ _ _).trans ?_
  refine congrArg₂ (· + ·) ?_ ?_
  · refine (broadcastInDim_apply _ _ _ (ix4 b s i (0 : Fin 1)) (ix3 b s i) ?_).trans ?_
    · intro a
      match a with
      | ⟨0, _⟩ => rfl
      | ⟨1, _⟩ => rfl
      | ⟨2, _⟩ => rfl
    refine (hostReduceAdd_apply _ _ _ _ _).trans ?_
    refine (Ideal.hostReduceAdd_single _ red_d3 _ _ _).trans ?_
    refine (congrArg (· + _) ((constant_apply _ _).trans Ideal.ofBits_zero_f32)).trans ?_
    refine (zero_add _).trans ?_
    refine Finset.sum_congr rfl fun k _ => congrArg x ?_
    funext a
    match a with
    | ⟨0, _⟩ => rfl
    | ⟨1, _⟩ => rfl
    | ⟨2, _⟩ => rfl
    | ⟨3, _⟩ => rfl
  · exact broadcastInDim_scalar_apply _ _ _

theorem colStep_apply (x : FVec Ideal S2x4096x4x4 .f32) (b : Fin 2) (s : Fin 4096) (i j : Fin 4) :
    colStep x (ix4 b s i j) = Token.colN (mat x b s) i j := by
  unfold colStep Token.colN
  refine (hostDivf_apply _ _ _).trans ?_
  refine congrArg (Ideal.div (x (ix4 b s i j))) ?_
  refine (broadcastInDim_apply _ _ _ (ix4 b s i j) (ix4 b s (0 : Fin 1) j) ?_).trans ?_
  · intro a
    match a with
    | ⟨0, _⟩ => rfl
    | ⟨1, _⟩ => rfl
    | ⟨2, _⟩ => rfl
    | ⟨3, _⟩ => rfl
  refine (addf_apply _ _ _).trans ?_
  refine congrArg₂ (· + ·) ?_ ?_
  · refine (broadcastInDim_apply _ _ _ (ix4 b s (0 : Fin 1) j) (ix3 b s j) ?_).trans ?_
    · intro a
      match a with
      | ⟨0, _⟩ => rfl
      | ⟨1, _⟩ => rfl
      | ⟨2, _⟩ => rfl
    refine (hostReduceAdd_apply _ _ _ _ _).trans ?_
    refine (Ideal.hostReduceAdd_single _ red_d2 _ _ _).trans ?_
    refine (congrArg (· + _) ((constant_apply _ _).trans Ideal.ofBits_zero_f32)).trans ?_
    refine (zero_add _).trans ?_
    refine Finset.sum_congr rfl fun k _ => congrArg x ?_
    funext a
    match a with
    | ⟨0, _⟩ => rfl
    | ⟨1, _⟩ => rfl
    | ⟨2, _⟩ => rfl
    | ⟨3, _⟩ => rfl
  · exact broadcastInDim_scalar_apply _ _ _

theorem mat_rowStep (x : FVec Ideal S2x4096x4x4 .f32) (b : Fin 2) (s : Fin 4096) :
    mat (rowStep x) b s = Token.rowN (mat x b s) := by
  funext i j; exact rowStep_apply x b s i j

theorem mat_colStep (x : FVec Ideal S2x4096x4x4 .f32) (b : Fin 2) (s : Fin 4096) :
    mat (colStep x) b s = Token.colN (mat x b s) := by
  funext i j; exact colStep_apply x b s i j

/-- One round on the array is one round on every token's matrix. -/
theorem mat_round (x : FVec Ideal S2x4096x4x4 .f32) (b : Fin 2) (s : Fin 4096) :
    mat (colStep (rowStep x)) b s = Token.colN (Token.rowN (mat x b s)) := by
  rw [mat_colStep, mat_rowStep]

theorem mat_iterate (n : Nat) (x : FVec Ideal S2x4096x4x4 .f32) (b : Fin 2) (s : Fin 4096) :
    mat ((fun y => colStep (rowStep y))^[n] x) b s = (fun c => Token.colN (Token.rowN c))^[n] (mat x b s) := by
  induction n generalizing x with
  | zero => rfl
  | succ n ih => rw [Function.iterate_succ_apply, Function.iterate_succ_apply, ih, mat_round]

/-! ## Host operations at an index -/

theorem hostRsqrt_apply {S : Shape} (a : FVec Ideal S .f32) (i : S.Idx) : Host.rsqrt (F := Ideal) a i = Ideal.rsqrt (a i) := rfl
theorem hostExp_apply {S : Shape} (a : FVec Ideal S .f32) (i : S.Idx) : Host.exp (F := Ideal) a i = Ideal.exp (a i) := rfl
theorem hostNegf_apply {S : Shape} (a : FVec Ideal S .f32) (i : S.Idx) : Host.negf (F := Ideal) a i = -(a i) := rfl

/-- A broadcast constant reads its value everywhere. -/
theorem bcastConst_apply {T : Shape} (h : S_.BroadcastsInDim T ![]) (bits : BitVec 32) (i : T.Idx) :
    broadcastInDim T ![] h (constant (F := Ideal) S_ .f32 bits) i = Ideal.ofBits .f32 bits := rfl

/-! ## The gate -/

/-- 1 / (1 + exp (−z)) + ε_h on a whole array. -/
def gateArr {T : Shape} (h : S_.BroadcastsInDim T ![]) (z : FVec Ideal T .f32) : FVec Ideal T .f32 :=
  addf (F := Ideal) (Host.divf (F := Ideal) (broadcastInDim T ![] h (constant (F := Ideal) S_ .f32 0x3F800000#32)) (addf (F := Ideal) (broadcastInDim T ![] h (constant (F := Ideal) S_ .f32 0x3F800000#32)) (Host.exp (F := Ideal) (Host.negf (F := Ideal) z)))) (broadcastInDim T ![] h (constant (F := Ideal) S_ .f32 0x3727C5AC#32))

theorem gateArr_apply {T : Shape} (h : S_.BroadcastsInDim T ![]) (z : FVec Ideal T .f32) (i : T.Idx) :
    gateArr h z i = Token.gate (z i) := by
  show Ideal.div (Ideal.ofBits .f32 0x3F800000#32) (Ideal.ofBits .f32 0x3F800000#32 + Ideal.exp (-(z i))) + Ideal.ofBits .f32 0x3727C5AC#32 = _
  rw [Ideal.ofBits_one_f32]
  rfl

/-! ## The scale and the bias -/

/-- Entry o of the scales, broadcast. -/
theorem scale_apply {T : Shape} (hT : S_.BroadcastsInDim T ![]) (a3 : FVec Ideal S3 .f32) (o : Nat) (ho : o < 3)
    (hs : S3.Slices ![o] S1) (i : T.Idx) :
    broadcastInDim T ![] hT (shapeCast S_ (extractStridedSlice S1 ![o] a3 hs) shapeCasts_S1_S_) i = a3 (ix1 (⟨o, ho⟩ : Fin 3)) := by
  refine (broadcastInDim_scalar_apply hT _ i).trans ?_
  refine (shapeCast_apply _ shapeCasts_S1_S_ ix0 (ix1 (0 : Fin 1)) ?_).trans ?_
  · rw [Shape.rowMajor_val_one]
    have h := (S_.rowMajor ix0).isLt
    have h1 : S_.numel = 1 := by decide
    show 0 = (S_.rowMajor ix0).val
    omega
  refine extractStridedSlice_apply _ a3 hs (ix1 (0 : Fin 1)) (ix1 (⟨o, ho⟩ : Fin 3)) ?_
  intro a
  match a with
  | ⟨0, _⟩ => rfl

/-- Entry o + h of the bias, along the last axis of a [2, 4096, 4] array. -/
theorem bias3_apply (a2 : FVec Ideal S24 .f32) (o : Nat) (hsl : S24.Slices ![o] S4) (b : Fin 2) (s : Fin 4096) (h : Fin 4)
    (n : Fin 24) (hn : n.val = o + h.val) :
    broadcastInDim S2x4096x4 ![0, 1, 2] bcast_S1x1x4_S2x4096x4_0_1_2 (broadcastInDim S1x1x4 ![2] bcast_S4_S1x1x4_2 (extractStridedSlice S4 ![o] a2 hsl)) (ix3 b s h)
      = a2 (ix1 n) := by
  refine (broadcastInDim_apply _ _ _ (ix3 b s h) (ix3 (0 : Fin 1) (0 : Fin 1) h) ?_).trans ?_
  · intro a
    match a with
    | ⟨0, _⟩ => rfl
    | ⟨1, _⟩ => rfl
    | ⟨2, _⟩ => rfl
  refine (broadcastInDim_apply _ _ _ (ix3 (0 : Fin 1) (0 : Fin 1) h) (ix1 h) ?_).trans ?_
  · intro a
    match a with
    | ⟨0, _⟩ => rfl
  refine extractStridedSlice_apply _ a2 hsl (ix1 h) (ix1 n) ?_
  intro a
  match a with
  | ⟨0, _⟩ => exact hn

/-- Entry o + h of the projection, along the last axis. -/
theorem slice3_apply (P : FVec Ideal S2x4096x24 .f32) (o : Nat) (hsl : S2x4096x24.Slices ![0, 0, o] S2x4096x4)
    (b : Fin 2) (s : Fin 4096) (h : Fin 4) (n : Fin 24) (hn : n.val = o + h.val) :
    extractStridedSlice S2x4096x4 ![0, 0, o] P hsl (ix3 b s h) = P (ix3 b s n) := by
  refine extractStridedSlice_apply _ P hsl (ix3 b s h) (ix3 b s n) ?_
  intro a
  match a with
  | ⟨0, _⟩ => exact (Nat.zero_add _).symm
  | ⟨1, _⟩ => exact (Nat.zero_add _).symm
  | ⟨2, _⟩ => exact hn

/-! ## The flattened rows, their inverse root mean square, the projection -/

theorem red8192 : S2x4096x8192.Reduces [2] S2x4096 := by decide

/-- Token (b, s)'s row of a [2, 4096, 8192] array. -/
def rowOf (x0 : FVec Ideal S2x4096x8192 .f32) (b : Fin 2) (s : Fin 4096) : Fin 8192 → EReal := fun k => x0 (ix3 b s k)

/-- Flattening the four streams of a token into one row of 8192. -/
theorem flat_apply (a0 : FVec Ideal S2x4096x4x2048 .f32) (b : Fin 2) (s : Fin 4096) (k : Fin 8192) :
    shapeCast S2x4096x8192 a0 shapeCasts_S2x4096x4x2048_S2x4096x8192 (ix3 b s k) = Token.tokRow a0 b s k := by
  unfold Token.tokRow
  refine shapeCast_apply a0 _ (ix3 b s k) (ix4 b s (⟨k.val / 2048, by omega⟩ : Fin 4) (⟨k.val % 2048, by omega⟩ : Fin 2048)) ?_
  rw [Shape.rowMajor_val_four, Shape.rowMajor_val_three]
  show ((b.val * 4096 + s.val) * 4 + k.val / 2048) * 2048 + k.val % 2048 = (b.val * 4096 + s.val) * 8192 + k.val
  omega

theorem rowOf_flat (a0 : FVec Ideal S2x4096x4x2048 .f32) (b : Fin 2) (s : Fin 4096) :
    rowOf (shapeCast S2x4096x8192 a0 shapeCasts_S2x4096x4x2048_S2x4096x8192) b s = Token.tokRow a0 b s := by
  funext k; exact flat_apply a0 b s k

/-- rsqrt (Σ x² / 8192 + ε_r) of every row, broadcast along the row. -/
def rmsArr (x0 : FVec Ideal S2x4096x8192 .f32) : FVec Ideal S2x4096x8192 .f32 :=
  broadcastInDim S2x4096x8192 ![0, 1, 2] bcast_S2x4096x1_S2x4096x8192_0_1_2 (Host.rsqrt (F := Ideal) (addf (F := Ideal) (Host.divf (F := Ideal) (broadcastInDim S2x4096x1 ![0, 1] bcast_S2x4096_S2x4096x1_0_1 (Host.reduceAdd (F := Ideal) (mulf (F := Ideal) x0 x0) (constant (F := Ideal) S_ .f32 0x00000000#32) reducesTo_S2x4096x8192_S2x4096_d2 h_S_)) (broadcastInDim S2x4096x1 ![] bcast_S_S2x4096x1 (constant (F := Ideal) S_ .f32 0x46000000#32))) (broadcastInDim S2x4096x1 ![] bcast_S_S2x4096x1 (constant (F := Ideal) S_ .f32 0x358637BD#32))))

theorem rmsArr_apply (x0 : FVec Ideal S2x4096x8192 .f32) (b : Fin 2) (s : Fin 4096) (k : Fin 8192) :
    rmsArr x0 (ix3 b s k) = Token.invRms (rowOf x0 b s) := by
  unfold rmsArr Token.invRms
  refine (broadcastInDim_apply _ _ _ (ix3 b s k) (ix3 b s (0 : Fin 1)) ?_).trans ?_
  · intro a
    match a with
    | ⟨0, _⟩ => rfl
    | ⟨1, _⟩ => rfl
    | ⟨2, _⟩ => rfl
  refine (hostRsqrt_apply _ _).trans (congrArg Ideal.rsqrt ?_)
  refine (addf_apply _ _ _).trans (congrArg₂ (· + ·) ?_ rfl)
  refine (hostDivf_apply _ _ _).trans (congrArg₂ Ideal.div ?_ rfl)
  refine (broadcastInDim_apply _ _ _ (ix3 b s (0 : Fin 1)) (ix2 b s) ?_).trans ?_
  · intro a
    match a with
    | ⟨0, _⟩ => rfl
    | ⟨1, _⟩ => rfl
  refine (hostReduceAdd_apply _ _ _ _ _).trans ?_
  refine (Ideal.hostReduceAdd_single _ red8192 _ _ _).trans ?_
  refine (congrArg (· + _) ((constant_apply _ _).trans Ideal.ofBits_zero_f32)).trans ?_
  refine (zero_add _).trans ?_
  refine Finset.sum_congr rfl fun c _ => ?_
  have e : red8192.lift (ix2 b s) c = ix3 b s c := by
    funext a
    match a with
    | ⟨0, _⟩ => rfl
    | ⟨1, _⟩ => rfl
    | ⟨2, _⟩ => rfl
  exact congrArg (fun t => x0 t * x0 t) e

/-- The dot's dimension numbers: axis 2 of the rows against axis 1 of the weights. -/
abbrev D : DotDims S2x4096x8192 S24x8192 S2x4096x24 := dot_S2x4096x8192_S24x8192_S2x4096x24_2_1_01_0_n_n

/-- The contraction's index is one coordinate below 8192. -/
def cE : D.contr.Idx ≃ Fin 8192 := contrEquiv1 D 8192 rfl rfl

theorem lhsIdx_eq (b : Fin 2) (s : Fin 4096) (n : Fin 24) (c : Fin 8192) :
    D.lhsIdx (ix3 b s n) (cE.symm c) = ix3 b s c := by
  funext a
  apply Fin.ext
  match a with
  | ⟨0, _⟩ => rfl
  | ⟨1, _⟩ => rfl
  | ⟨2, _⟩ => exact (D.lhsIdx_val_of_single (cl := ⟨2, by decide⟩) rfl (ix3 b s n) (cE.symm c)).trans (contrEquiv1_symm_val D 8192 rfl rfl c)

theorem rhsIdx_eq (b : Fin 2) (s : Fin 4096) (n : Fin 24) (c : Fin 8192) :
    D.rhsIdx (ix3 b s n) (cE.symm c) = ix2 n c := by
  funext a
  apply Fin.ext
  match a with
  | ⟨0, _⟩ => rfl
  | ⟨1, _⟩ => exact (D.rhsIdx_val_of_single (cr := ⟨1, by decide⟩) rfl (ix3 b s n) (cE.symm c)).trans (contrEquiv1_symm_val D 8192 rfl rfl c)

/-- The normalised rows against the weight matrix. -/
def projArr (x0 : FVec Ideal S2x4096x8192 .f32) (a1 : FVec Ideal S24x8192 .f32) : FVec Ideal S2x4096x24 .f32 :=
  Host.dotGeneral (F := Ideal) D none (mulf (F := Ideal) x0 (rmsArr x0)) a1

theorem projArr_apply (x0 : FVec Ideal S2x4096x8192 .f32) (a1 : FVec Ideal S24x8192 .f32) (b : Fin 2) (s : Fin 4096) (n : Fin 24) :
    projArr x0 a1 (ix3 b s n) = Token.proj (rowOf x0 b s) (Token.wMat a1) n := by
  unfold projArr Token.proj
  refine (Ideal.dotGeneral_apply D none .single _ _ _).trans ?_
  refine (Equiv.sum_comp cE.symm _).symm.trans ?_
  refine Finset.sum_congr rfl fun c _ => ?_
  refine congrArg₂ (· * ·) ?_ (congrArg a1 (rhsIdx_eq b s n c))
  refine (congrArg (mulf (F := Ideal) x0 (rmsArr x0)) (lhsIdx_eq b s n c)).trans ?_
  exact (mulf_apply _ _ _).trans (congrArg₂ (· * ·) rfl (rmsArr_apply x0 b s c))

/-! ## The gated readings of the projection -/

/-- Entries o .. o+3 of the projection, times scale k, plus the bias entries o .. o+3. -/
def linArr3 (P : FVec Ideal S2x4096x24 .f32) (a2 : FVec Ideal S24 .f32) (a3 : FVec Ideal S3 .f32) (o k : Nat)
    (hP : S2x4096x24.Slices ![0, 0, o] S2x4096x4) (h3 : S3.Slices ![k] S1) (h24 : S24.Slices ![o] S4) : FVec Ideal S2x4096x4 .f32 :=
  addf (F := Ideal) (mulf (F := Ideal) (extractStridedSlice S2x4096x4 ![0, 0, o] P hP) (broadcastInDim S2x4096x4 ![] bcast_S_S2x4096x4 (shapeCast S_ (extractStridedSlice S1 ![k] a3 h3) shapeCasts_S1_S_))) (broadcastInDim S2x4096x4 ![0, 1, 2] bcast_S1x1x4_S2x4096x4_0_1_2 (broadcastInDim S1x1x4 ![2] bcast_S4_S1x1x4_2 (extractStridedSlice S4 ![o] a2 h24)))

theorem linArr3_apply (P : FVec Ideal S2x4096x24 .f32) (a2 : FVec Ideal S24 .f32) (a3 : FVec Ideal S3 .f32) (o k : Nat)
    (hP : S2x4096x24.Slices ![0, 0, o] S2x4096x4) (h3 : S3.Slices ![k] S1) (h24 : S24.Slices ![o] S4)
    (b : Fin 2) (s : Fin 4096) (h : Fin 4) (hk : k < 3) (n : Fin 24) (hn : n.val = o + h.val) :
    linArr3 P a2 a3 o k hP h3 h24 (ix3 b s h)
      = P (ix3 b s n) * a3 (ix1 (⟨k, hk⟩ : Fin 3)) + a2 (ix1 n) := by
  unfold linArr3
  refine (addf_apply _ _ _).trans (congrArg₂ (· + ·) ?_ (bias3_apply a2 o h24 b s h n hn))
  exact (mulf_apply _ _ _).trans (congrArg₂ (· * ·) (slice3_apply P o hP b s h n hn) (scale_apply _ a3 k hk h3 _))

/-- The stream gates. -/
def preArr (P : FVec Ideal S2x4096x24 .f32) (a2 : FVec Ideal S24 .f32) (a3 : FVec Ideal S3 .f32) : FVec Ideal S2x4096x4 .f32 :=
  gateArr bcast_S_S2x4096x4 (linArr3 P a2 a3 0 0 slices_S2x4096x24_S2x4096x4_0_0_0 slices_S3_S1_0 slices_S24_S4_0)

/-- The post gates. -/
def postArr (P : FVec Ideal S2x4096x24 .f32) (a2 : FVec Ideal S24 .f32) (a3 : FVec Ideal S3 .f32) : FVec Ideal S2x4096x4 .f32 :=
  gateArr bcast_S_S2x4096x4 (linArr3 P a2 a3 4 1 slices_S2x4096x24_S2x4096x4_0_0_4 slices_S3_S1_1 slices_S24_S4_4)

/-- The 4 × 4 matrices before their normalisation. -/
def combArr (P : FVec Ideal S2x4096x24 .f32) (a2 : FVec Ideal S24 .f32) (a3 : FVec Ideal S3 .f32) : FVec Ideal S2x4096x4x4 .f32 :=
  gateArr bcast_S_S2x4096x4x4 (addf (F := Ideal) (mulf (F := Ideal) (shapeCast S2x4096x4x4 (extractStridedSlice S2x4096x16 ![0, 0, 8] P slices_S2x4096x24_S2x4096x16_0_0_8) shapeCasts_S2x4096x16_S2x4096x4x4) (broadcastInDim S2x4096x4x4 ![] bcast_S_S2x4096x4x4 (shapeCast S_ (extractStridedSlice S1 ![2] a3 slices_S3_S1_2) shapeCasts_S1_S_))) (broadcastInDim S2x4096x4x4 ![0, 1, 2, 3] bcast_S1x1x4x4_S2x4096x4x4_0_1_2_3 (broadcastInDim S1x1x4x4 ![2, 3] bcast_S4x4_S1x1x4x4_2_3 (shapeCast S4x4 (extractStridedSlice S16 ![8] a2 slices_S24_S16_8) shapeCasts_S16_S4x4))))

/-- Entry 8 + 4 i + j of the projection, laid out 4 × 4. -/
theorem slice16_apply (P : FVec Ideal S2x4096x24 .f32) (b : Fin 2) (s : Fin 4096) (i j : Fin 4) (ho : 8 + (i.val * 4 + j.val) < 24) :
    shapeCast S2x4096x4x4 (extractStridedSlice S2x4096x16 ![0, 0, 8] P slices_S2x4096x24_S2x4096x16_0_0_8) shapeCasts_S2x4096x16_S2x4096x4x4 (ix4 b s i j)
      = P (ix3 b s (⟨8 + (i.val * 4 + j.val), ho⟩ : Fin 24)) := by
  refine (shapeCast_apply _ shapeCasts_S2x4096x16_S2x4096x4x4 (ix4 b s i j) (ix3 b s (⟨i.val * 4 + j.val, by omega⟩ : Fin 16)) ?_).trans ?_
  · rw [Shape.rowMajor_val_four, Shape.rowMajor_val_three]
    show (b.val * 4096 + s.val) * 16 + (i.val * 4 + j.val) = ((b.val * 4096 + s.val) * 4 + i.val) * 4 + j.val
    omega
  refine extractStridedSlice_apply _ P _ (ix3 b s (⟨i.val * 4 + j.val, by omega⟩ : Fin 16)) (ix3 b s (⟨8 + (i.val * 4 + j.val), ho⟩ : Fin 24)) ?_
  intro a
  match a with
  | ⟨0, _⟩ => exact (Nat.zero_add _).symm
  | ⟨1, _⟩ => exact (Nat.zero_add _).symm
  | ⟨2, _⟩ => rfl

/-- Entry 8 + 4 i + j of the bias, laid out 4 × 4 and broadcast along the leading axes. -/
theorem bias44_apply (a2 : FVec Ideal S24 .f32) (b : Fin 2) (s : Fin 4096) (i j : Fin 4) (ho : 8 + (i.val * 4 + j.val) < 24) :
    broadcastInDim S2x4096x4x4 ![0, 1, 2, 3] bcast_S1x1x4x4_S2x4096x4x4_0_1_2_3 (broadcastInDim S1x1x4x4 ![2, 3] bcast_S4x4_S1x1x4x4_2_3 (shapeCast S4x4 (extractStridedSlice S16 ![8] a2 slices_S24_S16_8) shapeCasts_S16_S4x4)) (ix4 b s i j)
      = a2 (ix1 (⟨8 + (i.val * 4 + j.val), ho⟩ : Fin 24)) := by
  refine (broadcastInDim_apply _ _ _ (ix4 b s i j) (ix4 (0 : Fin 1) (0 : Fin 1) i j) ?_).trans ?_
  · intro a
    match a with
    | ⟨0, _⟩ => rfl
    | ⟨1, _⟩ => rfl
    | ⟨2, _⟩ => rfl
    | ⟨3, _⟩ => rfl
  refine (broadcastInDim_apply _ _ _ (ix4 (0 : Fin 1) (0 : Fin 1) i j) (ix2 i j) ?_).trans ?_
  · intro a
    match a with
    | ⟨0, _⟩ => rfl
    | ⟨1, _⟩ => rfl
  refine (shapeCast_apply _ shapeCasts_S16_S4x4 (ix2 i j) (ix1 (⟨i.val * 4 + j.val, by omega⟩ : Fin 16)) ?_).trans ?_
  · rw [Shape.rowMajor_val_one, Shape.rowMajor_val_two]
    rfl
  refine extractStridedSlice_apply _ a2 _ (ix1 (⟨i.val * 4 + j.val, by omega⟩ : Fin 16)) (ix1 (⟨8 + (i.val * 4 + j.val), ho⟩ : Fin 24)) ?_
  intro a
  match a with
  | ⟨0, _⟩ => rfl

theorem combArr_apply (P : FVec Ideal S2x4096x24 .f32) (a2 : FVec Ideal S24 .f32) (a3 : FVec Ideal S3 .f32)
    (b : Fin 2) (s : Fin 4096) (i j : Fin 4) (ho : 8 + (i.val * 4 + j.val) < 24) :
    combArr P a2 a3 (ix4 b s i j)
      = Token.gate (P (ix3 b s (⟨8 + (i.val * 4 + j.val), ho⟩ : Fin 24)) * a3 (ix1 (⟨2, by omega⟩ : Fin 3)) + a2 (ix1 (⟨8 + (i.val * 4 + j.val), ho⟩ : Fin 24))) := by
  unfold combArr
  refine (gateArr_apply _ _ _).trans (congrArg Token.gate ?_)
  refine (addf_apply _ _ _).trans (congrArg₂ (· + ·) ?_ (bias44_apply a2 b s i j ho))
  exact (mulf_apply _ _ _).trans (congrArg₂ (· * ·) (slice16_apply P b s i j ho) (scale_apply _ a3 2 (by omega) _ _))

/-! ## The collapse -/

theorem red2048 : S2x4096x4x2048.Reduces [2] S2x4096x2048 := by decide

/-- The gated sum of the four streams. -/
def collArr (G : FVec Ideal S2x4096x4 .f32) (a0 : FVec Ideal S2x4096x4x2048 .f32) : FVec Ideal S2x4096x2048 .f32 :=
  Host.reduceAdd (F := Ideal) (mulf (F := Ideal) (broadcastInDim S2x4096x4x2048 ![0, 1, 2, 3] bcast_S2x4096x4x1_S2x4096x4x2048_0_1_2_3 (broadcastInDim S2x4096x4x1 ![0, 1, 2] bcast_S2x4096x4_S2x4096x4x1_0_1_2 G)) a0) (constant (F := Ideal) S_ .f32 0x00000000#32) reducesTo_S2x4096x4x2048_S2x4096x2048_d2 h_S_

theorem collArr_apply (G : FVec Ideal S2x4096x4 .f32) (a0 : FVec Ideal S2x4096x4x2048 .f32) (b : Fin 2) (s : Fin 4096) (d : Fin 2048) :
    collArr G a0 (ix3 b s d) = ∑ h : Fin 4, G (ix3 b s h) * a0 (ix4 b s h d) := by
  unfold collArr
  refine (hostReduceAdd_apply _ _ _ _ _).trans ?_
  refine (Ideal.hostReduceAdd_single _ red2048 _ _ _).trans ?_
  refine (congrArg (· + _) ((constant_apply _ _).trans Ideal.ofBits_zero_f32)).trans ?_
  refine (zero_add _).trans ?_
  refine Finset.sum_congr rfl fun h _ => ?_
  have e : red2048.lift (ix3 b s d) h = ix4 b s h d := by
    funext a
    match a with
    | ⟨0, _⟩ => rfl
    | ⟨1, _⟩ => rfl
    | ⟨2, _⟩ => rfl
    | ⟨3, _⟩ => rfl
  refine (congrArg (mulf (F := Ideal) _ a0) e).trans ?_
  refine (mulf_apply _ _ _).trans (congrArg₂ (· * ·) ?_ rfl)
  refine (broadcastInDim_apply _ _ _ (ix4 b s h d) (ix4 b s h (0 : Fin 1)) ?_).trans ?_
  · intro a
    match a with
    | ⟨0, _⟩ => rfl
    | ⟨1, _⟩ => rfl
    | ⟨2, _⟩ => rfl
    | ⟨3, _⟩ => rfl
  refine broadcastInDim_apply _ _ _ (ix4 b s h (0 : Fin 1)) (ix3 b s h) ?_
  intro a
  match a with
  | ⟨0, _⟩ => rfl
  | ⟨1, _⟩ => rfl
  | ⟨2, _⟩ => rfl

/-- Entry d of stream h of a token's row. -/
theorem tokRow_stream (a0 : FVec Ideal S2x4096x4x2048 .f32) (b : Fin 2) (s : Fin 4096) (h : Fin 4) (d : Fin 2048)
    (hk : h.val * 2048 + d.val < 8192) :
    Token.tokRow a0 b s (⟨h.val * 2048 + d.val, hk⟩ : Fin 8192) = a0 (ix4 b s h d) := by
  unfold Token.tokRow
  refine congrArg a0 ?_
  funext a
  apply Fin.ext
  match a with
  | ⟨0, _⟩ => rfl
  | ⟨1, _⟩ => rfl
  | ⟨2, _⟩ =>
    show (h.val * 2048 + d.val) / 2048 = h.val
    omega
  | ⟨3, _⟩ =>
    show (h.val * 2048 + d.val) % 2048 = d.val
    omega

/-! ## The three results -/

section Results

variable (V0 : Valuation τ sig (Elt Ideal))

/-- The reference's intermediate arrays, one name each, are the arrays above. -/
theorem v0_eq : res_main_v0 V0 = shapeCast S2x4096x8192 (V0 (Proc.devRef .tc main_arg0)) shapeCasts_S2x4096x4x2048_S2x4096x8192 := rfl
theorem v11_eq : res_main_v11 V0 = projArr (res_main_v0 V0) (V0 (Proc.devRef .tc main_arg1)) := rfl
theorem v64_eq : res_main_v64 V0 = combArr (res_main_v11 V0) (V0 (Proc.devRef .tc main_arg2)) (V0 (Proc.devRef .tc main_arg3)) := rfl
theorem v70_eq : res_main_v70 V0 = rowStep (res_main_v64 V0) := rfl
theorem v76_eq : res_main_v76 V0 = colStep (res_main_v70 V0) := rfl
theorem v82_eq : res_main_v82 V0 = rowStep (res_main_v76 V0) := rfl
theorem v88_eq : res_main_v88 V0 = colStep (res_main_v82 V0) := rfl
theorem v94_eq : res_main_v94 V0 = rowStep (res_main_v88 V0) := rfl
theorem v100_eq : res_main_v100 V0 = colStep (res_main_v94 V0) := rfl
theorem v106_eq : res_main_v106 V0 = rowStep (res_main_v100 V0) := rfl
theorem v112_eq : res_main_v112 V0 = colStep (res_main_v106 V0) := rfl
theorem v118_eq : res_main_v118 V0 = rowStep (res_main_v112 V0) := rfl
theorem v124_eq : res_main_v124 V0 = colStep (res_main_v118 V0) := rfl
theorem v130_eq : res_main_v130 V0 = rowStep (res_main_v124 V0) := rfl
theorem v136_eq : res_main_v136 V0 = colStep (res_main_v130 V0) := rfl
theorem v142_eq : res_main_v142 V0 = rowStep (res_main_v136 V0) := rfl
theorem v148_eq : res_main_v148 V0 = colStep (res_main_v142 V0) := rfl
theorem v154_eq : res_main_v154 V0 = rowStep (res_main_v148 V0) := rfl
theorem v160_eq : res_main_v160 V0 = colStep (res_main_v154 V0) := rfl
theorem v166_eq : res_main_v166 V0 = rowStep (res_main_v160 V0) := rfl
theorem v172_eq : res_main_v172 V0 = colStep (res_main_v166 V0) := rfl
theorem v178_eq : res_main_v178 V0 = rowStep (res_main_v172 V0) := rfl

/-- The projection array at (b, s, n) is entry n of the projection of token (b, s)'s normalised row. -/
theorem v11_apply (b : Fin 2) (s : Fin 4096) (n : Fin 24) :
    res_main_v11 V0 (ix3 b s n) = Token.proj (Token.tokRow (V0 (Proc.devRef .tc main_arg0)) b s) (Token.wMat (V0 (Proc.devRef .tc main_arg1))) n := by
  refine (congrFun (v11_eq V0) _).trans ?_
  refine (projArr_apply _ _ b s n).trans ?_
  rw [v0_eq, rowOf_flat]

/-- The matrix of token (b, s) before its normalisation. -/
theorem v64_mat (b : Fin 2) (s : Fin 4096) :
    mat (res_main_v64 V0) b s = Token.comb0 (Token.tokRow (V0 (Proc.devRef .tc main_arg0)) b s) (Token.wMat (V0 (Proc.devRef .tc main_arg1)))
      (Token.vec (V0 (Proc.devRef .tc main_arg3))) (Token.vec (V0 (Proc.devRef .tc main_arg2))) := by
  funext i j
  unfold mat Token.comb0
  refine (congrFun (v64_eq V0) _).trans ?_
  refine (combArr_apply _ _ _ b s i j (by omega)).trans ?_
  rw [v11_apply]
  rfl

theorem ref_post :
    val5 V0 (Proc.devRef .tc main_v45) = Cert.Token.outPost (V0 (Proc.devRef .tc main_arg0)) (V0 (Proc.devRef .tc main_arg1)) (V0 (Proc.devRef .tc main_arg2)) (V0 (Proc.devRef .tc main_arg3)) := by
  refine (val5_main_v45 V0).trans ?_
  show postArr (res_main_v11 V0) (V0 (Proc.devRef .tc main_arg2)) (V0 (Proc.devRef .tc main_arg3)) = _
  funext idx
  obtain ⟨b, s, h, rfl⟩ : ∃ (b : Fin 2) (s : Fin 4096) (h : Fin 4), idx = ix3 b s h := ⟨idx 0, idx 1, idx 2, eq_ix3 idx⟩
  rw [Token.outPost_ix]
  unfold postArr Token.post
  refine (gateArr_apply _ _ _).trans (congrArg Token.gate ?_)
  refine (linArr3_apply _ _ _ 4 1 _ _ _ b s h (by omega) (⟨4 + h.val, by omega⟩ : Fin 24) rfl).trans ?_
  rw [v11_apply]
  rfl

theorem ref_comb :
    val5 V0 (Proc.devRef .tc main_v184) = Cert.Token.outComb (V0 (Proc.devRef .tc main_arg0)) (V0 (Proc.devRef .tc main_arg1)) (V0 (Proc.devRef .tc main_arg2)) (V0 (Proc.devRef .tc main_arg3)) := by
  refine (val5_main_v184 V0).trans ?_
  show colStep (res_main_v178 V0) = _
  funext idx
  obtain ⟨b, s, i, j, rfl⟩ : ∃ (b : Fin 2) (s : Fin 4096) (i j : Fin 4), idx = ix4 b s i j := ⟨idx 0, idx 1, idx 2, idx 3, eq_ix4 idx⟩
  rw [Token.outComb_ix]
  show mat (colStep (res_main_v178 V0)) b s i j = _
  rw [mat_colStep, v178_eq V0, mat_rowStep, v172_eq V0, mat_colStep, v166_eq V0, mat_rowStep, v160_eq V0, mat_colStep, v154_eq V0, mat_rowStep, v148_eq V0, mat_colStep, v142_eq V0, mat_rowStep, v136_eq V0, mat_colStep, v130_eq V0, mat_rowStep, v124_eq V0, mat_colStep, v118_eq V0, mat_rowStep, v112_eq V0, mat_colStep, v106_eq V0, mat_rowStep, v100_eq V0, mat_colStep, v94_eq V0, mat_rowStep, v88_eq V0, mat_colStep, v82_eq V0, mat_rowStep, v76_eq V0, mat_colStep, v70_eq V0, mat_rowStep, v64_mat]
  rfl

theorem ref_coll :
    val5 V0 (Proc.devRef .tc main_v188) = Cert.Token.outColl (V0 (Proc.devRef .tc main_arg0)) (V0 (Proc.devRef .tc main_arg1)) (V0 (Proc.devRef .tc main_arg2)) (V0 (Proc.devRef .tc main_arg3)) := by
  refine (val5_main_v188 V0).trans ?_
  show collArr (preArr (res_main_v11 V0) (V0 (Proc.devRef .tc main_arg2)) (V0 (Proc.devRef .tc main_arg3))) (V0 (Proc.devRef .tc main_arg0)) = _
  funext idx
  obtain ⟨b, s, d, rfl⟩ : ∃ (b : Fin 2) (s : Fin 4096) (d : Fin 2048), idx = ix3 b s d := ⟨idx 0, idx 1, idx 2, eq_ix3 idx⟩
  rw [Token.outColl_ix]
  refine (collArr_apply _ _ b s d).trans ?_
  unfold Token.collapse
  refine Finset.sum_congr rfl fun h _ => congrArg₂ (· * ·) ?_ (tokRow_stream _ b s h d _).symm
  unfold preArr Token.pre
  refine (gateArr_apply _ _ _).trans (congrArg Token.gate ?_)
  refine (linArr3_apply _ _ _ 0 0 _ _ _ b s h (by omega) (⟨h.val, by omega⟩ : Fin 24) (Nat.zero_add _).symm).trans ?_
  rw [v11_apply]
  rfl

end Results

end Cert.RefSide

end
-- ==== Proof.lean ====
/- The proof of `Cert.Claim`: the kernel and its reference compute, token by token, the same function of the four
   argument arrays over the extended reals (Proof/Token.lean: the inverse root mean square of the token's 8192 entries,
   the projection of the normalised row on 24 weight rows, three groups of gates — logistic plus ε —, a 4 × 4 matrix
   normalised ten times by rows then columns, and the gated sum of the token's four streams).
   The kernel side: Proof/KerBody.lean reads the body's arithmetic at an entry, Proof/KerOut.lean the three stored blocks,
   Proof/Blocks.lean the fetched blocks and the tiling of the result arrays, Proof/KerValue.lean puts them together
   (`Cert.KernelIdeal.Hand.run`). The reference side: Proof/RefSide.lean reads the reference's run at an entry.
   No law of the extended reals beyond 0 + x = x and the re-indexing of finite sums is used, so the precondition is
   never opened: the two programs spell the same formula (the kernel's `logistic` is 1 / (1 + e⁻ˣ) by definition, a change
   of float format is the identity, a matrix product into a zero accumulator and a host dot product are the same sum).
   The three frames: the two kernels' are the generated frame certificates; the reference's is its run with the results
   dropped. `preserves` has no conjunct. -/
import proofs.«124175_j13761075216602_1_alg».proof.Defs
import proofs.«124175_j13761075216602_1_alg».proof.Proof.Gen.Kernel
import proofs.«124175_j13761075216602_1_alg».proof.Proof.Gen.Kernel.Skeleton
import proofs.«124175_j13761075216602_1_alg».proof.Proof.Gen.Kernel.Launch
import proofs.«124175_j13761075216602_1_alg».proof.Proof.Gen.Kernel.Points
import proofs.«124175_j13761075216602_1_alg».proof.Proof.Gen.Kernel.Frame
import proofs.«124175_j13761075216602_1_alg».proof.Proof.Gen.KernelIdeal
import proofs.«124175_j13761075216602_1_alg».proof.Proof.Gen.KernelIdeal.Skeleton
import proofs.«124175_j13761075216602_1_alg».proof.Proof.Gen.KernelIdeal.Launch
import proofs.«124175_j13761075216602_1_alg».proof.Proof.Gen.KernelIdeal.Points
import proofs.«124175_j13761075216602_1_alg».proof.Proof.Gen.KernelIdeal.Frame
import proofs.«124175_j13761075216602_1_alg».proof.Proof.Gen.ReferenceIdeal
import proofs.«124175_j13761075216602_1_alg».proof.Proof.Gen.Pre_finite_inputs
import proofs.«124175_j13761075216602_1_alg».proof.Proof.Gen.ReferenceIdeal.Run
import proofs.«124175_j13761075216602_1_alg».proof.Proof.KerValue
import proofs.«124175_j13761075216602_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both runs end with the three result arrays at the specification's arrays of the (agreeing) arguments. -/
theorem algebraic : Cert.algebraic_KernelIdeal_ReferenceIdeal := by
  intro m ρ m' ρ' _ hagree
  refine ⟨fun c => Cert.Token.outPost (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Token.outComb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Token.outColl (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ?_) (Cert.ReferenceIdeal.Value.run (F := Ideal) m' ρ')
  obtain ⟨h1, h2, h3, h4⟩ := h c
  obtain ⟨a0, a1, a2, a3⟩ := hagree c
  refine ⟨h1.trans ?_, h2.trans ?_, h3.trans ?_, h4⟩
  · refine ((Cert.ReferenceIdeal.Value.val5_main_v45 (launchContents m' c)).symm.trans (Cert.RefSide.ref_post (launchContents m' c))).trans ?_
    show Cert.Token.outPost (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [a0, a1, a2, a3]
  · refine ((Cert.ReferenceIdeal.Value.val5_main_v184 (launchContents m' c)).symm.trans (Cert.RefSide.ref_comb (launchContents m' c))).trans ?_
    show Cert.Token.outComb (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [a0, a1, a2, a3]
  · refine ((Cert.ReferenceIdeal.Value.val5_main_v188 (launchContents m' c)).symm.trans (Cert.RefSide.ref_coll (launchContents m' c))).trans ?_
    show Cert.Token.outColl (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [a0, a1, a2, a3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
